-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1000000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1100000x64 : Shape := ⟨2, ![1100000, 64]⟩
abbrev S100000x32 : Shape := ⟨2, ![100000, 32]⟩
abbrev S5000x64 : Shape := ⟨2, ![5000, 64]⟩
abbrev S5000x1 : Shape := ⟨2, ![5000, 1]⟩
abbrev S5000x32 : Shape := ⟨2, ![5000, 32]⟩
abbrev S1x64 : Shape := ⟨2, ![1, 64]⟩
abbrev S1100000x32 : Shape := ⟨2, ![1100000, 32]⟩
abbrev S1x32 : Shape := ⟨2, ![1, 32]⟩

abbrev nBuf : Space → Nat
  | .hbm => 63
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1000000, .i32⟩
  | .hbm, ⟨8, _⟩ => ⟨S1000000, .i32⟩
  | .hbm, ⟨9, _⟩ => ⟨S1100000, .i32⟩
  | .hbm, ⟨10, _⟩ => ⟨S1x1000000, .i32⟩
  | .hbm, ⟨11, _⟩ => ⟨S1000000, .i32⟩
  | .hbm, ⟨12, _⟩ => ⟨S1100000, .i32⟩
  | .hbm, ⟨13, _⟩ => ⟨S_, .f32⟩
  | .hbm, ⟨14, _⟩ => ⟨S1100000, .f32⟩
  | .hbm, ⟨15, _⟩ => ⟨S_, .f32⟩
  | .hbm, ⟨16, _⟩ => ⟨S100000, .f32⟩
  | .hbm, ⟨17, _⟩ => ⟨S1100000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .bf16⟩
  | .hbm, ⟨32, _⟩ => ⟨S128x64, .bf16⟩
  | .hbm, ⟨33, _⟩ => ⟨S100000x64, .f32⟩
  | .hbm, ⟨34, _⟩ => ⟨S_, .i32⟩
  | .hbm, ⟨35, _⟩ => ⟨S1100000, .i32⟩
  | .hbm, ⟨36, _⟩ => ⟨S1100000, .i1⟩
  | .hbm, ⟨37, _⟩ => ⟨S_, .i32⟩
  | .hbm, ⟨38, _⟩ => ⟨S1100000, .i32⟩
  | .hbm, ⟨39, _⟩ => ⟨S1100000, .i32⟩
  | .hbm, ⟨40, _⟩ => ⟨S1100000, .i32⟩
  | .hbm, ⟨41, _⟩ => ⟨S1100000x1, .i32⟩
  | .hbm, ⟨42, _⟩ => ⟨S1100000x64, .f32⟩
  | .hbm, ⟨43, _⟩ => ⟨S_, .f32⟩
  | .hbm, ⟨44, _⟩ => ⟨S100000x64, .f32⟩
  | .hbm, ⟨45, _⟩ => ⟨S1100000x1, .i32⟩
  | .hbm, ⟨46, _⟩ => ⟨S100000x64, .f32⟩
  | .hbm, ⟨47, _⟩ => ⟨S64x32, .bf16⟩
  | .hbm, ⟨48, _⟩ => ⟨S100000x32, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x32, .f32⟩
  | .hbm, ⟨58, _⟩ => ⟨S_, .f32⟩
  | .hbm, ⟨59, _⟩ => ⟨S100000x32, .f32⟩
  | .hbm, ⟨60, _⟩ => ⟨S1100000x1, .i32⟩
  | .hbm, ⟨61, _⟩ => ⟨S100000x32, .f32⟩
  | .hbm, ⟨62, _⟩ => ⟨S100000x32, .f32⟩
  | .local _ .vmem, ⟨0, _⟩ => ⟨S10000x128, .bf16⟩
  | .local _ .vmem, ⟨1, _⟩ => ⟨S10000x128, .bf16⟩
  | .local _ .vmem, ⟨2, _⟩ => ⟨S128x64, .bf16⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64, .f32⟩
  | .local _ .vmem, ⟨12, _⟩ => ⟨S64x32, .bf16⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x1, .f32⟩
  | .local _ .vmem, ⟨18, _⟩ => ⟨S5000x1, .f32⟩
  | .local _ .vmem, ⟨19, _⟩ => ⟨S32, .f32⟩
  | .local _ .vmem, ⟨20, _⟩ => ⟨S5000x32, .f32⟩
  | .local _ .vmem, ⟨21, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S100000_S100000x1_0 : S100000.BroadcastsInDim S100000x1 (![0] : Fin 1 → Fin S100000x1.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S5000x32_S5000x32 : S5000x32.ShapeCasts S5000x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  scatter_S100000_S1100000x1_S1100000_n_0_0_1_wf : ScatterDims.WF S100000 S1100000x1 S1100000 [] [0] [0] 1
  dot_S10000x128_S128x64_S10000x64_1_0_0_1_n_n_wf : DotDims.WF S10000x128 S128x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x32_S5000x32_1_0_0_1_n_n_wf : DotDims.WF S5000x64 S64x32 S5000x32 [1] [0] [0] [1] [] []
  gather_S100000x32_S1100000x1_S1100000x32_1_0_n_n_0_1_132_wf : GatherDims.WF S100000x32 S1100000x1 S1100000x32 [1] [0] [] [0] [] 1 ![1, 32]
  scatter_S100000x32_S1100000x1_S1100000x32_1_0_0_1_wf : ScatterDims.WF S100000x32 S1100000x1 S1100000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .bf16 = 32 ∨ (Rect.block (s := S64x32) S64x32.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1100000x1_S1100000x32_1_0_n_n_0_1_132 : GatherDims S100000x32 S1100000x1 S1100000x32 where
  offsetDims := [1]
  collapsedSliceDims := [0]
  operandBatchingDims := []
  startIndicesBatchingDims := []
  startIndexMap := [0]
  indexVectorDim := 1
  sliceSizes := ![1, 32]
  wf := gather_S100000x32_S1100000x1_S1100000x32_1_0_n_n_0_1_132_wf
def scatter_S100000x32_S1100000x1_S1100000x32_1_0_0_1 : ScatterDims S100000x32 S1100000x1 S1100000x32 where
  updateWindowDims := [1]
  insertedWindowDims := [0]
  scatterDimsToOperandDims := [0]
  indexVectorDim := 1
  wf := scatter_S100000x32_S1100000x1_S1100000x32_1_0_0_1_wf

abbrev win0_0 : Pipeline.Window sig grid0 :=
  Pipeline.Window.ofSpec (Memref.whole main_v18) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1100000x64 : Shape := ⟨2, ![1100000, 64]⟩
abbrev S1x64 : Shape := ⟨2, ![1, 64]⟩
abbrev S100000x32 : Shape := ⟨2, ![100000, 32]⟩
abbrev S1100000x32 : Shape := ⟨2, ![1100000, 32]⟩
abbrev S1x32 : Shape := ⟨2, ![1, 32]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1000000, .i32⟩
  | .hbm, ⟨8, _⟩ => ⟨S1000000, .i32⟩
  | .hbm, ⟨9, _⟩ => ⟨S1100000, .i32⟩
  | .hbm, ⟨10, _⟩ => ⟨S1x1000000, .i32⟩
  | .hbm, ⟨11, _⟩ => ⟨S1000000, .i32⟩
  | .hbm, ⟨12, _⟩ => ⟨S1100000, .i32⟩
  | .hbm, ⟨13, _⟩ => ⟨S_, .f32⟩
  | .hbm, ⟨14, _⟩ => ⟨S1100000, .f32⟩
  | .hbm, ⟨15, _⟩ => ⟨S_, .f32⟩
  | .hbm, ⟨16, _⟩ => ⟨S100000, .f32⟩
  | .hbm, ⟨17, _⟩ => ⟨S1100000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1100000, .i32⟩
  | .hbm, ⟨32, _⟩ => ⟨S1100000, .i1⟩
  | .hbm, ⟨33, _⟩ => ⟨S_, .i32⟩
  | .hbm, ⟨34, _⟩ => ⟨S1100000, .i32⟩
  | .hbm, ⟨35, _⟩ => ⟨S1100000, .i32⟩
  | .hbm, ⟨36, _⟩ => ⟨S1100000, .i32⟩
  | .hbm, ⟨37, _⟩ => ⟨S1100000x1, .i32⟩
  | .hbm, ⟨38, _⟩ => ⟨S1100000, .f32⟩
  | .hbm, ⟨39, _⟩ => ⟨S_, .i32⟩
  | .hbm, ⟨40, _⟩ => ⟨S1100000, .i32⟩
  | .hbm, ⟨41, _⟩ => ⟨S1100000, .i1⟩
  | .hbm, ⟨42, _⟩ => ⟨S_, .i32⟩
  | .hbm, ⟨43, _⟩ => ⟨S1100000, .i32⟩
  | .hbm, ⟨44, _⟩ => ⟨S1100000, .i32⟩
  | .hbm, ⟨45, _⟩ => ⟨S1100000, .i32⟩
  | .hbm, ⟨46, _⟩ => ⟨S1100000x1, .i32⟩
  | .hbm, ⟨47, _⟩ => ⟨S1100000, .f32⟩
  | .hbm, ⟨48, _⟩ => ⟨S1100000, .f32⟩
  | .hbm, ⟨49, _⟩ => ⟨S100000x64, .f32⟩
  | .hbm, ⟨50, _⟩ => ⟨S_, .i32⟩
  | .hbm, ⟨51, _⟩ => ⟨S1100000, .i32⟩
  | .hbm, ⟨52, _⟩ => ⟨S1100000, .i1⟩
  | .hbm, ⟨53, _⟩ => ⟨S_, .i32⟩
  | .hbm, ⟨54, _⟩ => ⟨S1100000, .i32⟩
  | .hbm, ⟨55, _⟩ => ⟨S1100000, .i32⟩
  | .hbm, ⟨56, _⟩ => ⟨S1100000, .i32⟩
  | .hbm, ⟨57, _⟩ => ⟨S1100000x1, .i32⟩
  | .hbm, ⟨58, _⟩ => ⟨S1100000x64, .f32⟩
  | .hbm, ⟨59, _⟩ => ⟨S1100000x1, .f32⟩
  | .hbm, ⟨60, _⟩ => ⟨S1100000x64, .f32⟩
  | .hbm, ⟨61, _⟩ => ⟨S1100000x64, .f32⟩
  | .hbm, ⟨62, _⟩ => ⟨S_, .f32⟩
  | .hbm, ⟨63, _⟩ => ⟨S100000x64, .f32⟩
  | .hbm, ⟨64, _⟩ => ⟨S1100000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S1100000, .i32⟩
  | .hbm, ⟨75, _⟩ => ⟨S1100000, .i1⟩
  | .hbm, ⟨76, _⟩ => ⟨S_, .i32⟩
  | .hbm, ⟨77, _⟩ => ⟨S1100000, .i32⟩
  | .hbm, ⟨78, _⟩ => ⟨S1100000, .i32⟩
  | .hbm, ⟨79, _⟩ => ⟨S1100000, .i32⟩
  | .hbm, ⟨80, _⟩ => ⟨S1100000x1, .i32⟩
  | .hbm, ⟨81, _⟩ => ⟨S1100000x32, .f32⟩
  | .hbm, ⟨82, _⟩ => ⟨S1100000x1, .f32⟩
  | .hbm, ⟨83, _⟩ => ⟨S1100000x32, .f32⟩
  | .hbm, ⟨84, _⟩ => ⟨S1100000x32, .f32⟩
  | .hbm, ⟨85, _⟩ => ⟨S_, .f32⟩
  | .hbm, ⟨86, _⟩ => ⟨S100000x32, .f32⟩
  | .hbm, ⟨87, _⟩ => ⟨S1100000x1, .i32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1100000x1_S1100000x32_0_1 : S1100000x1.BroadcastsInDim S1100000x32 (![0, 1] : Fin 2 → Fin S1100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x32_S100000x32_1_0_0_1_n_n_wf : DotDims.WF S100000x64 S64x32 S100000x32 [1] [0] [0] [1] [] []
  gather_S100000x32_S1100000x1_S1100000x32_1_0_n_n_0_1_132_wf : GatherDims.WF S100000x32 S1100000x1 S1100000x32 [1] [0] [] [0] [] 1 ![1, 32]
  scatter_S100000x32_S1100000x1_S1100000x32_1_0_0_1_wf : ScatterDims.WF S100000x32 S1100000x1 S1100000x32 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1100000x1_S1100000x32_1_0_n_n_0_1_132 : GatherDims S100000x32 S1100000x1 S1100000x32 where
  offsetDims := [1]
  collapsedSliceDims := [0]
  operandBatchingDims := []
  startIndicesBatchingDims := []
  startIndexMap := [0]
  indexVectorDim := 1
  sliceSizes := ![1, 32]
  wf := gather_S100000x32_S1100000x1_S1100000x32_1_0_n_n_0_1_132_wf
def scatter_S100000x32_S1100000x1_S1100000x32_1_0_0_1 : ScatterDims S100000x32 S1100000x1 S1100000x32 where
  updateWindowDims := [1]
  insertedWindowDims := [0]
  scatterDimsToOperandDims := [0]
  indexVectorDim := 1
  wf := scatter_S100000x32_S1100000x1_S1100000x32_1_0_0_1_wf

class Facts : Prop extends Facts₀ where

variable [Facts]
-- ==== Proof.KernelData.lean ====
/-
  The graph data the kernel program computes on the host from the edge list, before its first region.

  The edge list is a [2, 1000000] array of 32-bit words: row 0 the sources, row 1 the destinations. Each row is extended
  by the 100000 self-loops 0, 1, …, 99999. The degree of node p counts 1 for every extended destination word that, read
  as a signed integer, is p; the node's scale is 1 / sqrt (max (degree, 1)) where the degree is positive and 0 elsewhere.
  Rows are later taken at the source words (a negative word first moved up by 100000) and added at the destination words.
-/
import proofs.«145911_j41850161332531_2_alg».proof.Proof.Gen.KernelIdeal
import Idealize.ShloMosaic.PureOps.Ideal

noncomputable section

namespace Cert.KernelIdeal.Out

open Cert.KernelIdeal Cert.KernelIdeal.Gen Idealize.ShloMosaic

/-- The 1100000 source words: row 0 of the edge list, then the self-loops. -/
def srcWords (ei : IVec S2x1000000 32) : IVec S1100000 32 :=
  concatenate S1100000 0 [⟨S1000000, shapeCast S1000000 (extractStridedSlice S1x1000000 ![0, 0] ei slices_S2x1000000_S1x1000000_0_0) shapeCasts_S1x1000000_S1000000⟩, ⟨S100000, iotaInDim S100000 32 0⟩] concatenates_S1000000_S100000_S1100000_d0

/-- The 1100000 destination words: row 1 of the edge list, then the self-loops. -/
def dstWords (ei : IVec S2x1000000 32) : IVec S1100000 32 :=
  concatenate S1100000 0 [⟨S1000000, shapeCast S1000000 (extractStridedSlice S1x1000000 ![1, 0] ei slices_S2x1000000_S1x1000000_1_0) shapeCasts_S1x1000000_S1000000⟩, ⟨S100000, iotaInDim S100000 32 0⟩] concatenates_S1000000_S100000_S1100000_d0

/-- Words as the column a row gather reads: a negative word is first moved up by 100000. -/
def takeCol (w : IVec S1100000 32) : IVec S1100000x1 32 :=
  broadcastInDim S1100000x1 ![0] bcast_S1100000_S1100000x1_0
    (select (cmpi .slt w (broadcastInDim S1100000 ![] bcast_S_S1100000 (constantI S_ 32 0#32)))
      (addi w (broadcastInDim S1100000 ![] bcast_S_S1100000 (constantI S_ 32 100000#32))) w)

/-- Words as the column an accumulating scatter reads: as they are. -/
def putCol (w : IVec S1100000 32) : IVec S1100000x1 32 :=
  broadcastInDim S1100000x1 ![0] bcast_S1100000_S1100000x1_0 w

/-- The degree of every node: ones added at the destination words. -/
def degree (dw : IVec S1100000 32) : FVec Ideal S100000 .f32 :=
  Host.scatterAdd (F := Ideal) scatter_S100000_S1100000x1_S1100000_n_0_0_1
    (broadcastInDim S100000 ![] bcast_S_S100000 (constant S_ .f32 0x00000000#32)) (putCol dw)
    (broadcastInDim S1100000 ![] bcast_S_S1100000 (constant S_ .f32 0x3F800000#32))

/-- The per-node scale. -/
def nodeScale (dw : IVec S1100000 32) : FVec Ideal S100000 .f32 :=
  select (cmpf (F := Ideal) .ogt (degree dw) (broadcastInDim S100000 ![] bcast_S_S100000 (constant S_ .f32 0x00000000#32)))
    (Host.rsqrt (F := Ideal) (maximumf (degree dw) (broadcastInDim S100000 ![] bcast_S_S100000 (constant S_ .f32 0x3F800000#32))))
    (broadcastInDim S100000 ![] bcast_S_S100000 (id (constant (F := Ideal) S_ .f32 0x00000000#32)))

/-- The per-node scale kept as a column. -/
def nodeScaleCol (dw : IVec S1100000 32) : FVec Ideal S100000x1 .f32 :=
  broadcastInDim S100000x1 ![0] bcast_S100000_S100000x1_0 (nodeScale dw)

end Cert.KernelIdeal.Out

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.Region0.lean ====
/-
  What the first pipelined region leaves in its output array, as one function of the arrays it finds.

  The region walks the 100000 rows in 10 blocks of 10000. At a block it multiplies the block's rows of the [100000, 128]
  features by the whole [128, 64] weight matrix and scales row r of the product by the r-th entry of a [100000, 1] column.
  So entry (r, k) of the output is (∑ j, X (r, j) · W (j, k)) · d (r, 0), whatever block r falls in: block t of the output
  is computed from block t of the features and of the column, and the 10 blocks tile the rows.
-/
import proofs.«145911_j41850161332531_2_alg».proof.Proof.Gen.KernelIdeal.Frame
import proofs.«145911_j41850161332531_2_alg».proof.Proof.LibPlainMatmul
import proofs.«145911_j41850161332531_2_alg».proof.Proof.LibKeepdims
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat)

theorem zero_offsets : (![0, 0] : Fin 2 → Nat) = fun _ => 0 := funext fun a => by fin_cases a <;> rfl

/-- Entry (r, k) of the scaled product. -/
def scaledProduct0 (X : S100000x128.Idx → EReal) (W : S128x64.Idx → EReal) (d : S100000x1.Idx → EReal)
    (r : Fin 100000) (k : Fin 64) : EReal :=
  (∑ j : Fin 128, X (ix2 r j) * W (ix2 j k)) * d (ix2 r (0 : Fin 1))

/-- The same as an array. -/
def scaledProductArr0 (X : S100000x128.Idx → EReal) (W : S128x64.Idx → EReal) (d : S100000x1.Idx → EReal) :
    S100000x64.Idx → EReal :=
  fun i => scaledProduct0 X W d ⟨(i 0).val, (i 0).isLt⟩ ⟨(i 1).val, (i 1).isLt⟩

/-- The body's arithmetic at an entry of a block: the block's row of the features against the weights' column, scaled by
    the block's column entry of that row. -/
theorem pay0_apply (x0 : Vec Ideal S10000x128 .bf16) (x1 : Vec Ideal S128x64 .bf16) (x2 : Vec Ideal S10000x1 .f32)
    (p : Fin 10000) (k : Fin 64) :
    k0_pay1 (F := Ideal) x0 x1 x2 (ix2 p k)
      = (∑ j : Fin 128, x0 (ix2 p j) * x1 (ix2 j k)) * x2 (ix2 p (0 : Fin 1)) := by
  unfold k0_pay1
  simp only [shapeCast_self]
  rw [mulf_apply]
  refine congrArg₂ (· * ·) ?_ ?_
  · exact Cert.PlainMatmul.zero_acc_apply (a := 10000) (n := 128) (b := 64)
      dot_S10000x128_S128x64_S10000x64_1_0_0_1_n_n.wf none x0 x1 p k
  · exact Cert.Keepdims.column_repeat_apply (a := 10000) (b := 64) x2 broadcasts_S10000x1_S10000x64 p k

/-- The printed index maps over the 10 points: the row-blocked windows move with the point, the weights stay. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- Block t of the features: rows 10000 t … 10000 t + 9999. -/
theorem features_block0 (c : Dev nD) (t : Fin cfg0.N) (p : Fin 10000) (j : Fin 128) (r : Fin 100000)
    (hr : r.val = t.val * 10000 + p.val) :
    (iblk0 V c 0 t : Vec Ideal S10000x128 .bf16) (ix2 p j) = (V c main_v18 : S100000x128.Idx → EReal) (ix2 r j) := by
  obtain ⟨e0, e1, -⟩ := index_maps0 t
  unfold iblk0
  rw [View.read_apply]
  show (V c main_v18 : S100000x128.Idx → EReal) _ = _
  refine congrArg _ ?_
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * j.val = j.val; rw [e1]; omega

/-- The weights' one block is the whole matrix. -/
theorem weights_block0 (c : Dev nD) (t : Fin cfg0.N) (j : Fin 128) (k : Fin 64) :
    (iblk0 V c 1 t : Vec Ideal S128x64 .bf16) (ix2 j k) = (V c main_v19 : S128x64.Idx → EReal) (ix2 j k) := by
  obtain ⟨-, -, e0, e1, -⟩ := index_maps0 t
  unfold iblk0
  rw [View.read_apply]
  show (V c main_v19 : S128x64.Idx → EReal) _ = _
  refine congrArg _ ?_
  funext a
  apply Fin.ext
  match a with
  | ⟨0, _⟩ => show win0_1.index t (0 : Fin 2) * 128 + 1 * j.val = j.val; rw [e0]; omega
  | ⟨1, _⟩ => show win0_1.index t (1 : Fin 2) * 64 + 1 * k.val = k.val; rw [e1]; omega

/-- Block t of the scale column. -/
theorem column_block0 (c : Dev nD) (t : Fin cfg0.N) (p : Fin 10000) (r : Fin 100000)
    (hr : r.val = t.val * 10000 + p.val) :
    (iblk0 V c 2 t : Vec Ideal S10000x1 .f32) (ix2 p (0 : Fin 1)) = (V c main_v17 : S100000x1.Idx → EReal) (ix2 r (0 : Fin 1)) := by
  obtain ⟨-, -, -, -, e0, e1, -⟩ := index_maps0 t
  unfold iblk0
  rw [View.read_apply]
  show (V c main_v17 : S100000x1.Idx → EReal) _ = _
  refine congrArg _ ?_
  funext a
  apply Fin.ext
  match a with
  | ⟨0, _⟩ => show win0_2.index t (0 : Fin 2) * 10000 + 1 * p.val = r.val; rw [e0, hr]; omega
  | ⟨1, _⟩ => show win0_2.index t (1 : Fin 2) * 1 + 1 * 0 = 0; rw [e1]

/-- What point t writes back is block t of the scaled product of the arrays the region finds. -/
theorem flushed0 (c : Dev nD) (t : Fin cfg0.N) :
    (dat0 V c).flushed 3 t = ((cfg0.win 3).blk t).view.read (Elt Ideal)
      (scaledProductArr0 (V c main_v18) (V c main_v19) (V c main_v17)) := by
  show (cfg0.win 3).cut (grid0.coords t) ((dat0 V c).after 3 t) = _
  rw [after0_3]
  unfold out0_3
  rw [View.canon_unit_zero zero_offsets]
  simp only [View.ld_unit_zero (S := S10000x128) zero_offsets, View.ld_unit_zero (S := S128x64) zero_offsets,
    View.ld_unit_zero (S := S10000x1) zero_offsets]
  funext y
  obtain ⟨p, k, rfl⟩ : ∃ (p : Fin 10000) (k : Fin 64), y = ix2 p k := ⟨y 0, y 1, eq_ix2 y⟩
  have ht : t.val < 10 := by have h1 := t.isLt; have h2 : cfg0.N = 10 := N_0; omega
  obtain ⟨-, -, -, -, -, -, e0, e1⟩ := index_maps0 t
  have hemb : ((cfg0.win 3).blk t).view.emb (ix2 p k)
      = (ix2 (⟨t.val * 10000 + p.val, by have := p.isLt; omega⟩ : Fin 100000) k : S100000x64.Idx) := by
    funext a
    apply Fin.ext
    match a with
    | ⟨0, _⟩ => show win0_3.index t (0 : Fin 2) * 10000 + 1 * p.val = t.val * 10000 + p.val; rw [e0]; omega
    | ⟨1, _⟩ => show win0_3.index t (1 : Fin 2) * 64 + 1 * k.val = k.val; rw [e1]; omega
  rw [View.read_apply, hemb]
  refine (pay0_apply _ _ _ p k).trans ?_
  show _ = scaledProduct0 _ _ _ _ _
  unfold scaledProduct0
  refine congrArg₂ (· * ·) (Finset.sum_congr rfl fun j _ => congrArg₂ (· * ·) ?_ ?_) ?_
  · exact features_block0 V c t p j _ rfl
  · exact weights_block0 V c t j k
  · exact column_block0 V c t p _ rfl

/-- The 10 blocks tile the rows: every entry is in the block of its row's tenth. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨-, -, -, -, -, -, e0, e1⟩ := index_maps0 t
  refine ⟨t, flush0_3 t, ?_⟩
  show i ∈ ((View.whole main_v20).slice (win0_3.rect t)).set
  rw [View.set_slice_whole, Rect.mem_set_unit]
  intro a
  match a with
  | ⟨0, _⟩ =>
    show win0_3.index t (0 : Fin 2) * 10000 ≤ (i 0).val ∧ (i 0).val < win0_3.index t (0 : Fin 2) * 10000 + 10000
    rw [e0]; show (i 0).val / 10000 * 10000 ≤ (i 0).val ∧ (i 0).val < (i 0).val / 10000 * 10000 + 10000; omega
  | ⟨1, _⟩ =>
    show win0_3.index t (1 : Fin 2) * 64 ≤ (i 1).val ∧ (i 1).val < win0_3.index t (1 : Fin 2) * 64 + 64
    rw [e1]; omega

/-- THE REGION'S OUTPUT ARRAY after its last point: the scaled product of the arrays the region finds. -/
theorem region0_out (c : Dev nD) :
    (dat0 V c).arrAt 3 cfg0.N = scaledProductArr0 (V c main_v18) (V c main_v19) (V c main_v17) :=
  (dat0 V c).arrAt_eq_of_cover 3 _ (fun t _ => flushed0 V c t) (cover0)

end

end Cert.KernelIdeal.Out

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.Region1.lean ====
/-
  What the second pipelined region leaves in its output array, as one function of the arrays it finds.

  The region walks the 100000 rows in 20 blocks of 5000. For a row r of the aggregated [100000, 64] array A it scales the
  row by the r-th entry of the [100000, 1] column d, adds the bias b, clamps at zero, multiplies by the whole [64, 32]
  weight matrix W and scales the product's row by d (r, 0) again:
      (∑ k, max (A (r, k) · d (r, 0) + b k) 0 · W (k, q)) · d (r, 0).
  Block t of the output is computed from block t of A and of d, and the 20 blocks tile the rows.
-/
import proofs.«145911_j41850161332531_2_alg».proof.Proof.Gen.KernelIdeal.Frame
import proofs.«145911_j41850161332531_2_alg».proof.Proof.LibPlainMatmul
import proofs.«145911_j41850161332531_2_alg».proof.Proof.LibKeepdims
import proofs.«145911_j41850161332531_2_alg».proof.Proof.LibRowOps
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat)

theorem zero_offsets_r1 : (![0, 0] : Fin 2 → Nat) = fun _ => 0 := funext fun a => by fin_cases a <;> rfl
theorem zero_offset_r1 : (![0] : Fin 1 → Nat) = fun _ => 0 := funext fun a => by fin_cases a; rfl

/-- Entry (r, q) of the region's result. -/
def hiddenProduct1 (A : S100000x64.Idx → EReal) (d : S100000x1.Idx → EReal) (b : S64.Idx → EReal) (W : S64x32.Idx → EReal)
    (r : Fin 100000) (q : Fin 32) : EReal :=
  (∑ k : Fin 64, max (A (ix2 r k) * d (ix2 r (0 : Fin 1)) + b (ix1 k)) (Ideal.ofBits .f32 0x00000000#32) * W (ix2 k q))
    * d (ix2 r (0 : Fin 1))

/-- The same as an array. -/
def hiddenProductArr1 (A : S100000x64.Idx → EReal) (d : S100000x1.Idx → EReal) (b : S64.Idx → EReal) (W : S64x32.Idx → EReal) :
    S100000x32.Idx → EReal :=
  fun i => hiddenProduct1 A d b W ⟨(i 0).val, (i 0).isLt⟩ ⟨(i 1).val, (i 1).isLt⟩

/-- The body's arithmetic at an entry of a block. The column block is loaded twice (`x1`, `x1'`). -/
theorem pay1_apply (x0 : Vec Ideal S5000x64 .f32) (x1 : Vec Ideal S5000x1 .f32) (x2 : Vec Ideal S64 .f32)
    (x3 : Vec Ideal S64x32 .bf16) (x1' : Vec Ideal S5000x1 .f32) (p : Fin 5000) (q : Fin 32) :
    k1_pay1 (F := Ideal) x0 x1 x2 x3 x1' (ix2 p q)
      = (∑ k : Fin 64, max (x0 (ix2 p k) * x1 (ix2 p (0 : Fin 1)) + x2 (ix1 k)) (Ideal.ofBits .f32 0x00000000#32) * x3 (ix2 k q))
          * x1' (ix2 p (0 : Fin 1)) := by
  unfold k1_pay1
  simp only [shapeCast_self]
  rw [mulf_apply]
  refine congrArg₂ (· * ·) ?_ ?_
  · refine (Cert.PlainMatmul.zero_acc_apply (a := 5000) (n := 64) (b := 32) (φ₁ := .bf16) (φ₂ := .bf16)
      dot_S5000x64_S64x32_S5000x32_1_0_0_1_n_n.wf none _ x3 p q).trans ?_
    refine Finset.sum_congr rfl fun k _ => congrArg₂ (· * ·) ?_ rfl
    rw [truncf_apply, maximumf_apply, addf_apply, mulf_apply, broadcast_apply]
    refine congrArg₂ max (congrArg₂ (· + ·) (congrArg₂ (· * ·) rfl ?_) ?_) rfl
    · exact Cert.Keepdims.column_repeat_apply (a := 5000) (b := 64) x1 broadcasts_S5000x1_S5000x64 p k
    · exact Cert.RowOps.row_repeated_apply (a := 5000) (b := 64) x2 shapeCasts_S64_S1x64 broadcasts_S1x64_S5000x64 p k
  · exact Cert.Keepdims.column_repeat_apply (a := 5000) (b := 32) x1' broadcasts_S5000x1_S5000x32 p q

/-- The printed index maps over the 20 points: the row-blocked windows move with the point, the bias and weights stay. -/
theorem index_maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- Block t of the aggregated array: rows 5000 t … 5000 t + 4999. -/
theorem agg_block1 (c : Dev nD) (t : Fin cfg1.N) (p : Fin 5000) (k : Fin 64) (r : Fin 100000)
    (hr : r.val = t.val * 5000 + p.val) :
    (iblk1 V c 0 t : Vec Ideal S5000x64 .f32) (ix2 p k) = (V c main_v30 : S100000x64.Idx → EReal) (ix2 r k) := by
  obtain ⟨e0, e1, -⟩ := index_maps1 t
  unfold iblk1
  rw [View.read_apply]
  show (V c main_v30 : S100000x64.Idx → EReal) _ = _
  refine congrArg _ ?_
  funext a
  apply Fin.ext
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- Block t of the scale column. -/
theorem column_block1 (c : Dev nD) (t : Fin cfg1.N) (p : Fin 5000) (r : Fin 100000)
    (hr : r.val = t.val * 5000 + p.val) :
    (iblk1 V c 1 t : Vec Ideal S5000x1 .f32) (ix2 p (0 : Fin 1)) = (V c main_v17 : S100000x1.Idx → EReal) (ix2 r (0 : Fin 1)) := by
  obtain ⟨-, -, e0, e1, -⟩ := index_maps1 t
  unfold iblk1
  rw [View.read_apply]
  show (V c main_v17 : S100000x1.Idx → EReal) _ = _
  refine congrArg _ ?_
  funext a
  apply Fin.ext
  match a with
  | ⟨0, _⟩ => show win1_1.index t (0 : Fin 2) * 5000 + 1 * p.val = r.val; rw [e0, hr]; omega
  | ⟨1, _⟩ => show win1_1.index t (1 : Fin 2) * 1 + 1 * 0 = 0; rw [e1]

/-- The bias' one block is the whole vector. -/
theorem bias_block1 (c : Dev nD) (t : Fin cfg1.N) (k : Fin 64) :
    (iblk1 V c 2 t : Vec Ideal S64 .f32) (ix1 k) = (V c main_arg3 : S64.Idx → EReal) (ix1 k) := by
  obtain ⟨-, -, -, -, e0, -⟩ := index_maps1 t
  unfold iblk1
  rw [View.read_apply]
  show (V c main_arg3 : S64.Idx → EReal) _ = _
  refine congrArg _ ?_
  funext a
  apply Fin.ext
  match a with
  | ⟨0, _⟩ => show win1_2.index t (0 : Fin 1) * 64 + 1 * k.val = k.val; rw [e0]; omega

/-- The weights' one block is the whole matrix. -/
theorem weights_block1 (c : Dev nD) (t : Fin cfg1.N) (k : Fin 64) (q : Fin 32) :
    (iblk1 V c 3 t : Vec Ideal S64x32 .bf16) (ix2 k q) = (V c main_v31 : S64x32.Idx → EReal) (ix2 k q) := by
  obtain ⟨-, -, -, -, -, e0, e1, -⟩ := index_maps1 t
  unfold iblk1
  rw [View.read_apply]
  show (V c main_v31 : S64x32.Idx → EReal) _ = _
  refine congrArg _ ?_
  funext a
  apply Fin.ext
  match a with
  | ⟨0, _⟩ => show win1_3.index t (0 : Fin 2) * 64 + 1 * k.val = k.val; rw [e0]; omega
  | ⟨1, _⟩ => show win1_3.index t (1 : Fin 2) * 32 + 1 * q.val = q.val; rw [e1]; omega

/-- What point t writes back is block t of the region's result over the arrays it finds. -/
theorem flushed1 (c : Dev nD) (t : Fin cfg1.N) :
    (dat1 V c).flushed 4 t = ((cfg1.win 4).blk t).view.read (Elt Ideal)
      (hiddenProductArr1 (V c main_v30) (V c main_v17) (V c main_arg3) (V c main_v31)) := by
  show (cfg1.win 4).cut (grid1.coords t) ((dat1 V c).after 4 t) = _
  rw [after1_4]
  unfold out1_4
  rw [View.canon_unit_zero zero_offsets_r1]
  simp only [View.ld_unit_zero (S := S5000x64) zero_offsets_r1, View.ld_unit_zero (S := S5000x1) zero_offsets_r1,
    View.ld_unit_zero (S := S64) zero_offset_r1, View.ld_unit_zero (S := S64x32) zero_offsets_r1]
  funext y
  obtain ⟨p, q, rfl⟩ : ∃ (p : Fin 5000) (q : Fin 32), y = ix2 p q := ⟨y 0, y 1, eq_ix2 y⟩
  have ht : t.val < 20 := by have h1 := t.isLt; have h2 : cfg1.N = 20 := N_1; omega
  obtain ⟨-, -, -, -, -, -, -, e0, e1⟩ := index_maps1 t
  have hemb : ((cfg1.win 4).blk t).view.emb (ix2 p q)
      = (ix2 (⟨t.val * 5000 + p.val, by have := p.isLt; omega⟩ : Fin 100000) q : S100000x32.Idx) := by
    funext a
    apply Fin.ext
    match a with
    | ⟨0, _⟩ => show win1_4.index t (0 : Fin 2) * 5000 + 1 * p.val = t.val * 5000 + p.val; rw [e0]; omega
    | ⟨1, _⟩ => show win1_4.index t (1 : Fin 2) * 32 + 1 * q.val = q.val; rw [e1]; omega
  rw [View.read_apply, hemb]
  refine (pay1_apply _ _ _ _ _ p q).trans ?_
  show _ = hiddenProduct1 _ _ _ _ _ _
  unfold hiddenProduct1
  refine congrArg₂ (· * ·) (Finset.sum_congr rfl fun k _ => congrArg₂ (· * ·)
    (congrArg₂ max (congrArg₂ (· + ·) (congrArg₂ (· * ·) ?_ ?_) ?_) rfl) ?_) ?_
  · exact agg_block1 V c t p k _ rfl
  · exact column_block1 V c t p _ rfl
  · exact bias_block1 V c t k
  · exact weights_block1 V c t k q
  · exact column_block1 V c t p _ rfl

/-- The 20 blocks tile the rows. -/
theorem cover1 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  let t : Fin cfg1.N := ⟨(i 0).val / 5000, by rw [show cfg1.N = 20 from N_1]; omega⟩
  obtain ⟨-, -, -, -, -, -, -, e0, e1⟩ := index_maps1 t
  refine ⟨t, flush1_4 t, ?_⟩
  show i ∈ ((View.whole main_v32).slice (win1_4.rect t)).set
  rw [View.set_slice_whole, Rect.mem_set_unit]
  intro a
  match a with
  | ⟨0, _⟩ =>
    show win1_4.index t (0 : Fin 2) * 5000 ≤ (i 0).val ∧ (i 0).val < win1_4.index t (0 : Fin 2) * 5000 + 5000
    rw [e0]; show (i 0).val / 5000 * 5000 ≤ (i 0).val ∧ (i 0).val < (i 0).val / 5000 * 5000 + 5000; omega
  | ⟨1, _⟩ =>
    show win1_4.index t (1 : Fin 2) * 32 ≤ (i 1).val ∧ (i 1).val < win1_4.index t (1 : Fin 2) * 32 + 32
    rw [e1]; omega

/-- THE REGION'S OUTPUT ARRAY after its last point. -/
theorem region1_out (c : Dev nD) :
    (dat1 V c).arrAt 4 cfg1.N = hiddenProductArr1 (V c main_v30) (V c main_v17) (V c main_arg3) (V c main_v31) :=
  (dat1 V c).arrAt_eq_of_cover 4 _ (fun t _ => flushed1 V c t) (cover1)

end

end Cert.KernelIdeal.Out

end
-- ==== Proof.Region2.lean ====
/-
  What the third pipelined region leaves in its output array, as one function of the arrays it finds.

  The region walks the 100000 rows in 20 blocks of 5000 and, for a row r of the aggregated [100000, 32] array A, scales the
  row by the r-th entry of the [100000, 1] column d and adds the bias b:  A (r, q) · d (r, 0) + b q.
  Block t of the output is computed from block t of A and of d, and the 20 blocks tile the rows.
-/
import proofs.«145911_j41850161332531_2_alg».proof.Proof.Gen.KernelIdeal.Frame
import proofs.«145911_j41850161332531_2_alg».proof.Proof.LibPlainMatmul
import proofs.«145911_j41850161332531_2_alg».proof.Proof.LibKeepdims
import proofs.«145911_j41850161332531_2_alg».proof.Proof.LibRowOps
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat)

theorem zero_offsets_r2 : (![0, 0] : Fin 2 → Nat) = fun _ => 0 := funext fun a => by fin_cases a <;> rfl
theorem zero_offset_r2 : (![0] : Fin 1 → Nat) = fun _ => 0 := funext fun a => by fin_cases a; rfl

/-- Entry (r, q) of the region's result. -/
def scaledBiased2 (A : S100000x32.Idx → EReal) (d : S100000x1.Idx → EReal) (b : S32.Idx → EReal)
    (r : Fin 100000) (q : Fin 32) : EReal :=
  A (ix2 r q) * d (ix2 r (0 : Fin 1)) + b (ix1 q)

/-- The same as an array. -/
def scaledBiasedArr2 (A : S100000x32.Idx → EReal) (d : S100000x1.Idx → EReal) (b : S32.Idx → EReal) :
    S100000x32.Idx → EReal :=
  fun i => scaledBiased2 A d b ⟨(i 0).val, (i 0).isLt⟩ ⟨(i 1).val, (i 1).isLt⟩

/-- The body's arithmetic at an entry of a block. -/
theorem pay2_apply (x0 : Vec Ideal S5000x32 .f32) (x1 : Vec Ideal S5000x1 .f32) (x2 : Vec Ideal S32 .f32)
    (p : Fin 5000) (q : Fin 32) :
    k2_pay1 (F := Ideal) x0 x1 x2 (ix2 p q) = x0 (ix2 p q) * x1 (ix2 p (0 : Fin 1)) + x2 (ix1 q) := by
  unfold k2_pay1
  simp only [shapeCast_self]
  rw [addf_apply, mulf_apply]
  refine congrArg₂ (· + ·) (congrArg₂ (· * ·) rfl ?_) ?_
  · exact Cert.Keepdims.column_repeat_apply (a := 5000) (b := 32) x1 broadcasts_S5000x1_S5000x32 p q
  · exact Cert.RowOps.row_repeated_apply (a := 5000) (b := 32) x2 shapeCasts_S32_S1x32 broadcasts_S1x32_S5000x32 p q

/-- The printed index maps over the 20 points. -/
theorem index_maps2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- Block t of the aggregated array: rows 5000 t … 5000 t + 4999. -/
theorem agg_block2 (c : Dev nD) (t : Fin cfg2.N) (p : Fin 5000) (q : Fin 32) (r : Fin 100000)
    (hr : r.val = t.val * 5000 + p.val) :
    (iblk2 V c 0 t : Vec Ideal S5000x32 .f32) (ix2 p q) = (V c main_v42 : S100000x32.Idx → EReal) (ix2 r q) := by
  obtain ⟨e0, e1, -⟩ := index_maps2 t
  unfold iblk2
  rw [View.read_apply]
  show (V c main_v42 : S100000x32.Idx → EReal) _ = _
  refine congrArg _ ?_
  funext a
  apply Fin.ext
  match a with
  | ⟨0, _⟩ => show win2_0.index t (0 : Fin 2) * 5000 + 1 * p.val = r.val; rw [e0, hr]; omega
  | ⟨1, _⟩ => show win2_0.index t (1 : Fin 2) * 32 + 1 * q.val = q.val; rw [e1]; omega

/-- Block t of the scale column. -/
theorem column_block2 (c : Dev nD) (t : Fin cfg2.N) (p : Fin 5000) (r : Fin 100000)
    (hr : r.val = t.val * 5000 + p.val) :
    (iblk2 V c 1 t : Vec Ideal S5000x1 .f32) (ix2 p (0 : Fin 1)) = (V c main_v17 : S100000x1.Idx → EReal) (ix2 r (0 : Fin 1)) := by
  obtain ⟨-, -, e0, e1, -⟩ := index_maps2 t
  unfold iblk2
  rw [View.read_apply]
  show (V c main_v17 : S100000x1.Idx → EReal) _ = _
  refine congrArg _ ?_
  funext a
  apply Fin.ext
  match a with
  | ⟨0, _⟩ => show win2_1.index t (0 : Fin 2) * 5000 + 1 * p.val = r.val; rw [e0, hr]; omega
  | ⟨1, _⟩ => show win2_1.index t (1 : Fin 2) * 1 + 1 * 0 = 0; rw [e1]

/-- The bias' one block is the whole vector. -/
theorem bias_block2 (c : Dev nD) (t : Fin cfg2.N) (q : Fin 32) :
    (iblk2 V c 2 t : Vec Ideal S32 .f32) (ix1 q) = (V c main_arg5 : S32.Idx → EReal) (ix1 q) := by
  obtain ⟨-, -, -, -, e0, -⟩ := index_maps2 t
  unfold iblk2
  rw [View.read_apply]
  show (V c main_arg5 : S32.Idx → EReal) _ = _
  refine congrArg _ ?_
  funext a
  apply Fin.ext
  match a with
  | ⟨0, _⟩ => show win2_2.index t (0 : Fin 1) * 32 + 1 * q.val = q.val; rw [e0]; omega

/-- What point t writes back is block t of the region's result over the arrays it finds. -/
theorem flushed2 (c : Dev nD) (t : Fin cfg2.N) :
    (dat2 V c).flushed 3 t = ((cfg2.win 3).blk t).view.read (Elt Ideal)
      (scaledBiasedArr2 (V c main_v42) (V c main_v17) (V c main_arg5)) := by
  show (cfg2.win 3).cut (grid2.coords t) ((dat2 V c).after 3 t) = _
  rw [after2_3]
  unfold out2_3
  rw [View.canon_unit_zero zero_offsets_r2]
  simp only [View.ld_unit_zero (S := S5000x32) zero_offsets_r2, View.ld_unit_zero (S := S5000x1) zero_offsets_r2,
    View.ld_unit_zero (S := S32) zero_offset_r2]
  funext y
  obtain ⟨p, q, rfl⟩ : ∃ (p : Fin 5000) (q : Fin 32), y = ix2 p q := ⟨y 0, y 1, eq_ix2 y⟩
  have ht : t.val < 20 := by have h1 := t.isLt; have h2 : cfg2.N = 20 := N_2; omega
  obtain ⟨-, -, -, -, -, e0, e1⟩ := index_maps2 t
  have hemb : ((cfg2.win 3).blk t).view.emb (ix2 p q)
      = (ix2 (⟨t.val * 5000 + p.val, by have := p.isLt; omega⟩ : Fin 100000) q : S100000x32.Idx) := by
    funext a
    apply Fin.ext
    match a with
    | ⟨0, _⟩ => show win2_3.index t (0 : Fin 2) * 5000 + 1 * p.val = t.val * 5000 + p.val; rw [e0]; omega
    | ⟨1, _⟩ => show win2_3.index t (1 : Fin 2) * 32 + 1 * q.val = q.val; rw [e1]; omega
  rw [View.read_apply, hemb]
  refine (pay2_apply _ _ _ p q).trans ?_
  show _ = scaledBiased2 _ _ _ _ _
  unfold scaledBiased2
  refine congrArg₂ (· + ·) (congrArg₂ (· * ·) ?_ ?_) ?_
  · exact agg_block2 V c t p q _ rfl
  · exact column_block2 V c t p _ rfl
  · exact bias_block2 V c t q

/-- The 20 blocks tile the rows. -/
theorem cover2 (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  let t : Fin cfg2.N := ⟨(i 0).val / 5000, by rw [show cfg2.N = 20 from N_2]; omega⟩
  obtain ⟨-, -, -, -, -, e0, e1⟩ := index_maps2 t
  refine ⟨t, flush2_3 t, ?_⟩
  show i ∈ ((View.whole main_v43).slice (win2_3.rect t)).set
  rw [View.set_slice_whole, Rect.mem_set_unit]
  intro a
  match a with
  | ⟨0, _⟩ =>
    show win2_3.index t (0 : Fin 2) * 5000 ≤ (i 0).val ∧ (i 0).val < win2_3.index t (0 : Fin 2) * 5000 + 5000
    rw [e0]; show (i 0).val / 5000 * 5000 ≤ (i 0).val ∧ (i 0).val < (i 0).val / 5000 * 5000 + 5000; omega
  | ⟨1, _⟩ =>
    show win2_3.index t (1 : Fin 2) * 32 ≤ (i 1).val ∧ (i 1).val < win2_3.index t (1 : Fin 2) * 32 + 32
    rw [e1]; omega

/-- THE REGION'S OUTPUT ARRAY after its last point. -/
theorem region2_out (c : Dev nD) :
    (dat2 V c).arrAt 3 cfg2.N = scaledBiasedArr2 (V c main_v42) (V c main_v17) (V c main_arg5) :=
  (dat2 V c).arrAt_eq_of_cover 3 _ (fun t _ => flushed2 V c t) (cover2)

end

end Cert.KernelIdeal.Out

end
-- ==== Proof.KernelArr.lean ====
/-
  The kernel program's result array as ONE term of its six argument arrays.

  The host computes the graph data (source and destination words, the per-node scale kept as a column); region one
  leaves the scaled first-layer product; the host takes its rows at the source words and adds them at the destination
  words; region two scales, biases, clamps, multiplies by the second weight matrix and scales again; the host aggregates
  once more; region three scales and adds the last bias. Converting the features and weights to the short float format
  changes nothing on the extended reals.
-/
import proofs.«145911_j41850161332531_2_alg».proof.Proof.KernelData
import proofs.«145911_j41850161332531_2_alg».proof.Proof.Region0
import proofs.«145911_j41850161332531_2_alg».proof.Proof.Region1
import proofs.«145911_j41850161332531_2_alg».proof.Proof.Region2

noncomputable section

namespace Cert.KernelIdeal.Out

open Cert.KernelIdeal Cert.KernelIdeal.Gen Idealize.ShloMosaic

/-- Rows of a [100000, 64] array taken at the source words and added at the destination words. -/
def aggregate64 (sw dw : IVec S1100000 32) (H : FVec Ideal S100000x64 .f32) : FVec Ideal S100000x64 .f32 :=
  Host.scatterAdd (F := Ideal) scatter_S100000x64_S1100000x1_S1100000x64_1_0_0_1
    (broadcastInDim S100000x64 ![] bcast_S_S100000x64 (constant S_ .f32 0x00000000#32)) (putCol dw)
    (Host.gather gather_S100000x64_S1100000x1_S1100000x64_1_0_n_n_0_1_164 H (takeCol sw))

/-- The same for a [100000, 32] array. -/
def aggregate32 (sw dw : IVec S1100000 32) (H : FVec Ideal S100000x32 .f32) : FVec Ideal S100000x32 .f32 :=
  Host.scatterAdd (F := Ideal) scatter_S100000x32_S1100000x1_S1100000x32_1_0_0_1
    (broadcastInDim S100000x32 ![] bcast_S_S100000x32 (constant S_ .f32 0x00000000#32)) (putCol dw)
    (Host.gather gather_S100000x32_S1100000x1_S1100000x32_1_0_n_n_0_1_132 H (takeCol sw))

/-- The result array of the kernel program. -/
def kernelArr (x : FVec Ideal S100000x128 .f32) (ei : IVec S2x1000000 32) (W1 : FVec Ideal S128x64 .f32)
    (b1 : FVec Ideal S64 .f32) (W2 : FVec Ideal S64x32 .f32) (b2 : FVec Ideal S32 .f32) : S100000x32.Idx → EReal :=
  scaledBiasedArr2
    (aggregate32 (srcWords ei) (dstWords ei)
      (hiddenProductArr1
        (aggregate64 (srcWords ei) (dstWords ei)
          (scaledProductArr0 (truncf .bf16 x bitsLt_bf16_f32) (truncf .bf16 W1 bitsLt_bf16_f32) (nodeScaleCol (dstWords ei))))
        (nodeScaleCol (dstWords ei)) b1 (truncf .bf16 W2 bitsLt_bf16_f32)))
    (nodeScaleCol (dstWords ei)) b2

end Cert.KernelIdeal.Out

end
-- ==== Proof.HostStretches.lean ====
/-
  What the host operations between the kernel program's regions leave in the buffers.

  The program's @main is three pipelined regions among five stretches of host operations. For any contents of the
  buffers before a stretch, the contents of a buffer after it is the composition of the stretch's operations that lead
  to it, over the contents before; a buffer the stretch does not write keeps its contents. The first three stretches
  compute, from the edge list, the source words, the destination words and the per-node scale as a column, and narrow
  the node features and the first weight matrix; the fourth and the fifth each take the rows of a region's result at the
  source words and add them at the destination words.
-/
import proofs.«145911_j41850161332531_2_alg».proof.Proof.Gen.KernelIdeal.Launch
import proofs.«145911_j41850161332531_2_alg».proof.Proof.KernelData
import Idealize.ShloMosaic.Lib.StableHlo.Run
import Idealize.ShloMosaic.PureOps.Ideal.Laws

set_option maxRecDepth 16384

noncomputable section

namespace Cert.KernelIdeal.Out

open Cert.KernelIdeal Cert.KernelIdeal.Gen
open Idealize.ShloMosaic Idealize.ShloMosaic.TcCoe Idealize.SL.Sem Idealize.ShloMosaic.StableHlo

variable (Wv : Valuation τ sig (Elt Ideal))

/-! ## The first stretch: the words of the edge list, and the parts of the per-node scale -/

/-- The source words. -/
theorem s0_src : StableHlo.after hostOps0 Wv (Proc.devRef .tc main_v3) = srcWords (Wv (Proc.devRef .tc main_arg1)) := by
  after_results
  all_goals rfl

/-- The destination words. -/
theorem s0_dst : StableHlo.after hostOps0 Wv (Proc.devRef .tc main_v6) = dstWords (Wv (Proc.devRef .tc main_arg1)) := by
  after_results
  all_goals rfl

/-- Where the degree is positive. -/
theorem s0_pos : StableHlo.after hostOps0 Wv (Proc.devRef .tc main_v12) = cmpf (F := Ideal) .ogt (degree (dstWords (Wv (Proc.devRef .tc main_arg1)))) (broadcastInDim S100000 ![] bcast_S_S100000 (constant S_ .f32 0x00000000#32)) := by
  after_results
  all_goals rfl

/-- The reciprocal square root of the degree raised to at least 1. -/
theorem s0_rsqrt : StableHlo.after hostOps0 Wv (Proc.devRef .tc main_v15) = Host.rsqrt (F := Ideal) (maximumf (degree (dstWords (Wv (Proc.devRef .tc main_arg1)))) (broadcastInDim S100000 ![] bcast_S_S100000 (constant S_ .f32 0x3F800000#32))) := by
  after_results
  all_goals rfl

/-- The scalar zero. -/
theorem s0_zero : StableHlo.after hostOps0 Wv (Proc.devRef .tc main_cst_3) = constant (F := Ideal) S_ .f32 0x00000000#32 := by
  after_results
  all_goals rfl

theorem s0_keep_arg0 : StableHlo.after hostOps0 Wv (Proc.devRef .tc main_arg0) = Wv (Proc.devRef .tc main_arg0) := by
  after_results
  all_goals rfl

theorem s0_keep_arg2 : StableHlo.after hostOps0 Wv (Proc.devRef .tc main_arg2) = Wv (Proc.devRef .tc main_arg2) := by
  after_results
  all_goals rfl

theorem s0_keep_arg3 : StableHlo.after hostOps0 Wv (Proc.devRef .tc main_arg3) = Wv (Proc.devRef .tc main_arg3) := by
  after_results
  all_goals rfl

theorem s0_keep_arg4 : StableHlo.after hostOps0 Wv (Proc.devRef .tc main_arg4) = Wv (Proc.devRef .tc main_arg4) := by
  after_results
  all_goals rfl

theorem s0_keep_arg5 : StableHlo.after hostOps0 Wv (Proc.devRef .tc main_arg5) = Wv (Proc.devRef .tc main_arg5) := by
  after_results
  all_goals rfl

/-! ## The second stretch: the scale, zero where the degree is not positive -/

/-- The per-node scale from its parts. -/
theorem s1_scale : StableHlo.after hostOps0_1 Wv (Proc.devRef .tc main_v16) = select (Wv (Proc.devRef .tc main_v12)) (Wv (Proc.devRef .tc main_v15)) (broadcastInDim S100000 ![] bcast_S_S100000 (id (Wv (Proc.devRef .tc main_cst_3)))) := by
  after_results
  all_goals rfl

theorem s1_keep_v3 : StableHlo.after hostOps0_1 Wv (Proc.devRef .tc main_v3) = Wv (Proc.devRef .tc main_v3) := by
  after_results
  all_goals rfl

theorem s1_keep_v6 : StableHlo.after hostOps0_1 Wv (Proc.devRef .tc main_v6) = Wv (Proc.devRef .tc main_v6) := by
  after_results
  all_goals rfl

theorem s1_keep_arg0 : StableHlo.after hostOps0_1 Wv (Proc.devRef .tc main_arg0) = Wv (Proc.devRef .tc main_arg0) := by
  after_results
  all_goals rfl

theorem s1_keep_arg2 : StableHlo.after hostOps0_1 Wv (Proc.devRef .tc main_arg2) = Wv (Proc.devRef .tc main_arg2) := by
  after_results
  all_goals rfl

theorem s1_keep_arg3 : StableHlo.after hostOps0_1 Wv (Proc.devRef .tc main_arg3) = Wv (Proc.devRef .tc main_arg3) := by
  after_results
  all_goals rfl

theorem s1_keep_arg4 : StableHlo.after hostOps0_1 Wv (Proc.devRef .tc main_arg4) = Wv (Proc.devRef .tc main_arg4) := by
  after_results
  all_goals rfl

theorem s1_keep_arg5 : StableHlo.after hostOps0_1 Wv (Proc.devRef .tc main_arg5) = Wv (Proc.devRef .tc main_arg5) := by
  after_results
  all_goals rfl

/-! ## The third stretch: the scale as a column, the narrowed features and first weights -/

/-- The scale kept as a column. -/
theorem s2_col : StableHlo.after hostOps0_2 Wv (Proc.devRef .tc main_v17) = broadcastInDim S100000x1 ![0] bcast_S100000_S100000x1_0 (Wv (Proc.devRef .tc main_v16)) := by
  after_results
  all_goals rfl

/-- The node features narrowed. -/
theorem s2_x : StableHlo.after hostOps0_2 Wv (Proc.devRef .tc main_v18) = truncf (F := Ideal) (s := S100000x128) (φ := .f32) .bf16 (Wv (Proc.devRef .tc main_arg0)) bitsLt_bf16_f32 := by
  after_results
  all_goals rfl

/-- The first weight matrix narrowed. -/
theorem s2_w : StableHlo.after hostOps0_2 Wv (Proc.devRef .tc main_v19) = truncf (F := Ideal) (s := S128x64) (φ := .f32) .bf16 (Wv (Proc.devRef .tc main_arg2)) bitsLt_bf16_f32 := by
  after_results
  all_goals rfl

theorem s2_keep_v3 : StableHlo.after hostOps0_2 Wv (Proc.devRef .tc main_v3) = Wv (Proc.devRef .tc main_v3) := by
  after_results
  all_goals rfl

theorem s2_keep_v6 : StableHlo.after hostOps0_2 Wv (Proc.devRef .tc main_v6) = Wv (Proc.devRef .tc main_v6) := by
  after_results
  all_goals rfl

theorem s2_keep_arg3 : StableHlo.after hostOps0_2 Wv (Proc.devRef .tc main_arg3) = Wv (Proc.devRef .tc main_arg3) := by
  after_results
  all_goals rfl

theorem s2_keep_arg4 : StableHlo.after hostOps0_2 Wv (Proc.devRef .tc main_arg4) = Wv (Proc.devRef .tc main_arg4) := by
  after_results
  all_goals rfl

theorem s2_keep_arg5 : StableHlo.after hostOps0_2 Wv (Proc.devRef .tc main_arg5) = Wv (Proc.devRef .tc main_arg5) := by
  after_results
  all_goals rfl

/-! ## The fourth stretch: rows taken at the source words, added at the destination words -/

/-- The first aggregation. -/
theorem s3_agg : StableHlo.after hostOps1 Wv (Proc.devRef .tc main_v30) = Host.scatterAdd (F := Ideal) scatter_S100000x64_S1100000x1_S1100000x64_1_0_0_1 (broadcastInDim S100000x64 ![] bcast_S_S100000x64 (constant S_ .f32 0x00000000#32)) (putCol (Wv (Proc.devRef .tc main_v6))) (Host.gather gather_S100000x64_S1100000x1_S1100000x64_1_0_n_n_0_1_164 (Wv (Proc.devRef .tc main_v20)) (takeCol (Wv (Proc.devRef .tc main_v3)))) := by
  after_results
  all_goals rfl

/-- The second weight matrix narrowed. -/
theorem s3_w : StableHlo.after hostOps1 Wv (Proc.devRef .tc main_v31) = truncf (F := Ideal) (s := S64x32) (φ := .f32) .bf16 (Wv (Proc.devRef .tc main_arg4)) bitsLt_bf16_f32 := by
  after_results
  all_goals rfl

theorem s3_keep_v3 : StableHlo.after hostOps1 Wv (Proc.devRef .tc main_v3) = Wv (Proc.devRef .tc main_v3) := by
  after_results
  all_goals rfl

theorem s3_keep_v6 : StableHlo.after hostOps1 Wv (Proc.devRef .tc main_v6) = Wv (Proc.devRef .tc main_v6) := by
  after_results
  all_goals rfl

theorem s3_keep_v17 : StableHlo.after hostOps1 Wv (Proc.devRef .tc main_v17) = Wv (Proc.devRef .tc main_v17) := by
  after_results
  all_goals rfl

theorem s3_keep_arg3 : StableHlo.after hostOps1 Wv (Proc.devRef .tc main_arg3) = Wv (Proc.devRef .tc main_arg3) := by
  after_results
  all_goals rfl

theorem s3_keep_arg5 : StableHlo.after hostOps1 Wv (Proc.devRef .tc main_arg5) = Wv (Proc.devRef .tc main_arg5) := by
  after_results
  all_goals rfl

/-! ## The fifth stretch: the same for the second layer -/

/-- The second aggregation. -/
theorem s4_agg : StableHlo.after hostOps2 Wv (Proc.devRef .tc main_v42) = Host.scatterAdd (F := Ideal) scatter_S100000x32_S1100000x1_S1100000x32_1_0_0_1 (broadcastInDim S100000x32 ![] bcast_S_S100000x32 (constant S_ .f32 0x00000000#32)) (putCol (Wv (Proc.devRef .tc main_v6))) (Host.gather gather_S100000x32_S1100000x1_S1100000x32_1_0_n_n_0_1_132 (Wv (Proc.devRef .tc main_v32)) (takeCol (Wv (Proc.devRef .tc main_v3)))) := by
  after_results
  all_goals rfl

theorem s4_keep_v17 : StableHlo.after hostOps2 Wv (Proc.devRef .tc main_v17) = Wv (Proc.devRef .tc main_v17) := by
  after_results
  all_goals rfl

theorem s4_keep_arg5 : StableHlo.after hostOps2 Wv (Proc.devRef .tc main_arg5) = Wv (Proc.devRef .tc main_arg5) := by
  after_results
  all_goals rfl

/-! ## The first three stretches in a row -/

/-- The scale column the first region reads: the per-node scale of the destination words, kept as a column. -/
theorem e_col : StableHlo.after hostOps0_2 (StableHlo.after hostOps0_1 (StableHlo.after hostOps0 Wv)) (Proc.devRef .tc main_v17) = nodeScaleCol (dstWords (Wv (Proc.devRef .tc main_arg1))) := by
  rw [s2_col (StableHlo.after hostOps0_1 (StableHlo.after hostOps0 Wv)), s1_scale (StableHlo.after hostOps0 Wv), s0_pos Wv, s0_rsqrt Wv, s0_zero Wv]
  rfl

/-- The source words are still there. -/
theorem e_src : StableHlo.after hostOps0_2 (StableHlo.after hostOps0_1 (StableHlo.after hostOps0 Wv)) (Proc.devRef .tc main_v3) = srcWords (Wv (Proc.devRef .tc main_arg1)) := by
  rw [s2_keep_v3 (StableHlo.after hostOps0_1 (StableHlo.after hostOps0 Wv)), s1_keep_v3 (StableHlo.after hostOps0 Wv), s0_src Wv]

/-- The destination words are still there. -/
theorem e_dst : StableHlo.after hostOps0_2 (StableHlo.after hostOps0_1 (StableHlo.after hostOps0 Wv)) (Proc.devRef .tc main_v6) = dstWords (Wv (Proc.devRef .tc main_arg1)) := by
  rw [s2_keep_v6 (StableHlo.after hostOps0_1 (StableHlo.after hostOps0 Wv)), s1_keep_v6 (StableHlo.after hostOps0 Wv), s0_dst Wv]

/-- The narrowed node features. -/
theorem e_x : StableHlo.after hostOps0_2 (StableHlo.after hostOps0_1 (StableHlo.after hostOps0 Wv)) (Proc.devRef .tc main_v18) = truncf (F := Ideal) (s := S100000x128) (φ := .f32) .bf16 (Wv (Proc.devRef .tc main_arg0)) bitsLt_bf16_f32 := by
  rw [s2_x (StableHlo.after hostOps0_1 (StableHlo.after hostOps0 Wv)), s1_keep_arg0 (StableHlo.after hostOps0 Wv), s0_keep_arg0 Wv]

/-- The narrowed first weight matrix. -/
theorem e_w : StableHlo.after hostOps0_2 (StableHlo.after hostOps0_1 (StableHlo.after hostOps0 Wv)) (Proc.devRef .tc main_v19) = truncf (F := Ideal) (s := S128x64) (φ := .f32) .bf16 (Wv (Proc.devRef .tc main_arg2)) bitsLt_bf16_f32 := by
  rw [s2_w (StableHlo.after hostOps0_1 (StableHlo.after hostOps0 Wv)), s1_keep_arg2 (StableHlo.after hostOps0 Wv), s0_keep_arg2 Wv]

theorem e_keep_arg3 : StableHlo.after hostOps0_2 (StableHlo.after hostOps0_1 (StableHlo.after hostOps0 Wv)) (Proc.devRef .tc main_arg3) = Wv (Proc.devRef .tc main_arg3) := by
  rw [s2_keep_arg3 (StableHlo.after hostOps0_1 (StableHlo.after hostOps0 Wv)), s1_keep_arg3 (StableHlo.after hostOps0 Wv), s0_keep_arg3 Wv]

theorem e_keep_arg4 : StableHlo.after hostOps0_2 (StableHlo.after hostOps0_1 (StableHlo.after hostOps0 Wv)) (Proc.devRef .tc main_arg4) = Wv (Proc.devRef .tc main_arg4) := by
  rw [s2_keep_arg4 (StableHlo.after hostOps0_1 (StableHlo.after hostOps0 Wv)), s1_keep_arg4 (StableHlo.after hostOps0 Wv), s0_keep_arg4 Wv]

theorem e_keep_arg5 : StableHlo.after hostOps0_2 (StableHlo.after hostOps0_1 (StableHlo.after hostOps0 Wv)) (Proc.devRef .tc main_arg5) = Wv (Proc.devRef .tc main_arg5) := by
  rw [s2_keep_arg5 (StableHlo.after hostOps0_1 (StableHlo.after hostOps0 Wv)), s1_keep_arg5 (StableHlo.after hostOps0 Wv), s0_keep_arg5 Wv]

end Cert.KernelIdeal.Out

end
-- ==== Proof.KernelFold.lean ====
/-
  The kernel program's result array, followed through the run.

  The generated frame names what every buffer holds at each boundary of @main: after a stretch of host operations, the
  fold of the stretch over the contents before it; after a region, the region's arrays at what its write-backs leave and
  every other buffer as before. Walking those boundaries from the launch — the graph data and the converted arguments at
  the first region's entry; the first region's output; the aggregation; the second region's output; the aggregation; the
  third region's output — gives the result array as the one term `kernelArr` of the six argument arrays.
-/
import proofs.«145911_j41850161332531_2_alg».proof.Proof.KernelRun
import proofs.«145911_j41850161332531_2_alg».proof.Proof.KernelArr
import proofs.«145911_j41850161332531_2_alg».proof.Proof.HostStretches

set_option maxRecDepth 16384

noncomputable section

namespace Cert.KernelIdeal.Out

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## At the first region's entry -/

theorem entry0_col (c : Dev nD) : W3 m ρ c (Proc.devRef .tc main_v17) = nodeScaleCol (dstWords (m ((c : Thread nD τ).loc main_arg1))) := e_col (W0 m ρ c)
theorem entry0_src (c : Dev nD) : W3 m ρ c (Proc.devRef .tc main_v3) = srcWords (m ((c : Thread nD τ).loc main_arg1)) := e_src (W0 m ρ c)
theorem entry0_dst (c : Dev nD) : W3 m ρ c (Proc.devRef .tc main_v6) = dstWords (m ((c : Thread nD τ).loc main_arg1)) := e_dst (W0 m ρ c)
theorem entry0_x (c : Dev nD) : W3 m ρ c (Proc.devRef .tc main_v18) = truncf (F := Ideal) (s := S100000x128) (φ := .f32) .bf16 (m ((c : Thread nD τ).loc main_arg0)) bitsLt_bf16_f32 := e_x (W0 m ρ c)
theorem entry0_w (c : Dev nD) : W3 m ρ c (Proc.devRef .tc main_v19) = truncf (F := Ideal) (s := S128x64) (φ := .f32) .bf16 (m ((c : Thread nD τ).loc main_arg2)) bitsLt_bf16_f32 := e_w (W0 m ρ c)
theorem entry0_arg3 (c : Dev nD) : W3 m ρ c (Proc.devRef .tc main_arg3) = (m ((c : Thread nD τ).loc main_arg3)) := e_keep_arg3 (W0 m ρ c)
theorem entry0_arg4 (c : Dev nD) : W3 m ρ c (Proc.devRef .tc main_arg4) = (m ((c : Thread nD τ).loc main_arg4)) := e_keep_arg4 (W0 m ρ c)
theorem entry0_arg5 (c : Dev nD) : W3 m ρ c (Proc.devRef .tc main_arg5) = (m ((c : Thread nD τ).loc main_arg5)) := e_keep_arg5 (W0 m ρ c)

/-! ## After the first region -/

/-- The first region's output array: the scaled first-layer product. -/
theorem exit0_out (c : Dev nD) : W4 m ρ c (Proc.devRef .tc main_v20)
    = scaledProductArr0 (truncf (F := Ideal) (s := S100000x128) (φ := .f32) .bf16 (m ((c : Thread nD τ).loc main_arg0)) bitsLt_bf16_f32) (truncf (F := Ideal) (s := S128x64) (φ := .f32) .bf16 (m ((c : Thread nD τ).loc main_arg2)) bitsLt_bf16_f32) (nodeScaleCol (dstWords (m ((c : Thread nD τ).loc main_arg1)))) := by
  refine (W4_arr m ρ c 3).trans ((region0_out (V3 m ρ) c).trans ?_)
  show scaledProductArr0 (W3 m ρ c (Proc.devRef .tc main_v18)) (W3 m ρ c (Proc.devRef .tc main_v19)) (W3 m ρ c (Proc.devRef .tc main_v17)) = _
  rw [entry0_x, entry0_w, entry0_col]

/-- The scale column is an input of the region: it is as entered. -/
theorem exit0_col (c : Dev nD) : W4 m ρ c (Proc.devRef .tc main_v17) = nodeScaleCol (dstWords (m ((c : Thread nD τ).loc main_arg1))) :=
  ((W4_arr m ρ c 2).trans (((dat0 (V3 m ρ) c).arrAt_in 2 rfl _).trans (A_eq0 (V3 m ρ) c 2))).trans (entry0_col m ρ c)
theorem exit0_src (c : Dev nD) : W4 m ρ c (Proc.devRef .tc main_v3) = srcWords (m ((c : Thread nD τ).loc main_arg1)) := (W4_of_ne m ρ c main_v3 (by decide)).trans (entry0_src m ρ c)
theorem exit0_dst (c : Dev nD) : W4 m ρ c (Proc.devRef .tc main_v6) = dstWords (m ((c : Thread nD τ).loc main_arg1)) := (W4_of_ne m ρ c main_v6 (by decide)).trans (entry0_dst m ρ c)
theorem exit0_arg3 (c : Dev nD) : W4 m ρ c (Proc.devRef .tc main_arg3) = (m ((c : Thread nD τ).loc main_arg3)) := (W4_of_ne m ρ c main_arg3 (by decide)).trans (entry0_arg3 m ρ c)
theorem exit0_arg4 (c : Dev nD) : W4 m ρ c (Proc.devRef .tc main_arg4) = (m ((c : Thread nD τ).loc main_arg4)) := (W4_of_ne m ρ c main_arg4 (by decide)).trans (entry0_arg4 m ρ c)
theorem exit0_arg5 (c : Dev nD) : W4 m ρ c (Proc.devRef .tc main_arg5) = (m ((c : Thread nD τ).loc main_arg5)) := (W4_of_ne m ρ c main_arg5 (by decide)).trans (entry0_arg5 m ρ c)

/-! ## At the second region's entry -/

theorem entry1_agg (c : Dev nD) : W5 m ρ c (Proc.devRef .tc main_v30)
    = aggregate64 (srcWords (m ((c : Thread nD τ).loc main_arg1))) (dstWords (m ((c : Thread nD τ).loc main_arg1)))
        (scaledProductArr0 (truncf (F := Ideal) (s := S100000x128) (φ := .f32) .bf16 (m ((c : Thread nD τ).loc main_arg0)) bitsLt_bf16_f32) (truncf (F := Ideal) (s := S128x64) (φ := .f32) .bf16 (m ((c : Thread nD τ).loc main_arg2)) bitsLt_bf16_f32) (nodeScaleCol (dstWords (m ((c : Thread nD τ).loc main_arg1))))) := by
  refine (s3_agg (W4 m ρ c)).trans ?_
  rw [exit0_out, exit0_src, exit0_dst]
  rfl
theorem entry1_w (c : Dev nD) : W5 m ρ c (Proc.devRef .tc main_v31) = truncf (F := Ideal) (s := S64x32) (φ := .f32) .bf16 (m ((c : Thread nD τ).loc main_arg4)) bitsLt_bf16_f32 := by
  refine (s3_w (W4 m ρ c)).trans ?_
  rw [exit0_arg4]
theorem entry1_col (c : Dev nD) : W5 m ρ c (Proc.devRef .tc main_v17) = nodeScaleCol (dstWords (m ((c : Thread nD τ).loc main_arg1))) := (s3_keep_v17 (W4 m ρ c)).trans (exit0_col m ρ c)
theorem entry1_src (c : Dev nD) : W5 m ρ c (Proc.devRef .tc main_v3) = srcWords (m ((c : Thread nD τ).loc main_arg1)) := (s3_keep_v3 (W4 m ρ c)).trans (exit0_src m ρ c)
theorem entry1_dst (c : Dev nD) : W5 m ρ c (Proc.devRef .tc main_v6) = dstWords (m ((c : Thread nD τ).loc main_arg1)) := (s3_keep_v6 (W4 m ρ c)).trans (exit0_dst m ρ c)
theorem entry1_arg3 (c : Dev nD) : W5 m ρ c (Proc.devRef .tc main_arg3) = (m ((c : Thread nD τ).loc main_arg3)) := (s3_keep_arg3 (W4 m ρ c)).trans (exit0_arg3 m ρ c)
theorem entry1_arg5 (c : Dev nD) : W5 m ρ c (Proc.devRef .tc main_arg5) = (m ((c : Thread nD τ).loc main_arg5)) := (s3_keep_arg5 (W4 m ρ c)).trans (exit0_arg5 m ρ c)

/-! ## After the second region -/

theorem exit1_out (c : Dev nD) : W6 m ρ c (Proc.devRef .tc main_v32)
    = hiddenProductArr1
        (aggregate64 (srcWords (m ((c : Thread nD τ).loc main_arg1))) (dstWords (m ((c : Thread nD τ).loc main_arg1)))
          (scaledProductArr0 (truncf (F := Ideal) (s := S100000x128) (φ := .f32) .bf16 (m ((c : Thread nD τ).loc main_arg0)) bitsLt_bf16_f32) (truncf (F := Ideal) (s := S128x64) (φ := .f32) .bf16 (m ((c : Thread nD τ).loc main_arg2)) bitsLt_bf16_f32) (nodeScaleCol (dstWords (m ((c : Thread nD τ).loc main_arg1))))))
        (nodeScaleCol (dstWords (m ((c : Thread nD τ).loc main_arg1)))) (m ((c : Thread nD τ).loc main_arg3)) (truncf (F := Ideal) (s := S64x32) (φ := .f32) .bf16 (m ((c : Thread nD τ).loc main_arg4)) bitsLt_bf16_f32) := by
  refine (W6_arr m ρ c 4).trans ((region1_out (V5 m ρ) c).trans ?_)
  show hiddenProductArr1 (W5 m ρ c (Proc.devRef .tc main_v30)) (W5 m ρ c (Proc.devRef .tc main_v17)) (W5 m ρ c (Proc.devRef .tc main_arg3)) (W5 m ρ c (Proc.devRef .tc main_v31)) = _
  rw [entry1_agg, entry1_col, entry1_arg3, entry1_w]
theorem exit1_col (c : Dev nD) : W6 m ρ c (Proc.devRef .tc main_v17) = nodeScaleCol (dstWords (m ((c : Thread nD τ).loc main_arg1))) :=
  ((W6_arr m ρ c 1).trans (((dat1 (V5 m ρ) c).arrAt_in 1 rfl _).trans (A_eq1 (V5 m ρ) c 1))).trans (entry1_col m ρ c)
theorem exit1_src (c : Dev nD) : W6 m ρ c (Proc.devRef .tc main_v3) = srcWords (m ((c : Thread nD τ).loc main_arg1)) := (W6_of_ne m ρ c main_v3 (by decide)).trans (entry1_src m ρ c)
theorem exit1_dst (c : Dev nD) : W6 m ρ c (Proc.devRef .tc main_v6) = dstWords (m ((c : Thread nD τ).loc main_arg1)) := (W6_of_ne m ρ c main_v6 (by decide)).trans (entry1_dst m ρ c)
theorem exit1_arg5 (c : Dev nD) : W6 m ρ c (Proc.devRef .tc main_arg5) = (m ((c : Thread nD τ).loc main_arg5)) := (W6_of_ne m ρ c main_arg5 (by decide)).trans (entry1_arg5 m ρ c)

/-! ## At the third region's entry, and the result -/

theorem entry2_agg (c : Dev nD) : W7 m ρ c (Proc.devRef .tc main_v42)
    = aggregate32 (srcWords (m ((c : Thread nD τ).loc main_arg1))) (dstWords (m ((c : Thread nD τ).loc main_arg1)))
        (hiddenProductArr1
          (aggregate64 (srcWords (m ((c : Thread nD τ).loc main_arg1))) (dstWords (m ((c : Thread nD τ).loc main_arg1)))
            (scaledProductArr0 (truncf (F := Ideal) (s := S100000x128) (φ := .f32) .bf16 (m ((c : Thread nD τ).loc main_arg0)) bitsLt_bf16_f32) (truncf (F := Ideal) (s := S128x64) (φ := .f32) .bf16 (m ((c : Thread nD τ).loc main_arg2)) bitsLt_bf16_f32) (nodeScaleCol (dstWords (m ((c : Thread nD τ).loc main_arg1))))))
          (nodeScaleCol (dstWords (m ((c : Thread nD τ).loc main_arg1)))) (m ((c : Thread nD τ).loc main_arg3)) (truncf (F := Ideal) (s := S64x32) (φ := .f32) .bf16 (m ((c : Thread nD τ).loc main_arg4)) bitsLt_bf16_f32)) := by
  refine (s4_agg (W6 m ρ c)).trans ?_
  rw [exit1_out, exit1_src, exit1_dst]
  rfl
theorem entry2_col (c : Dev nD) : W7 m ρ c (Proc.devRef .tc main_v17) = nodeScaleCol (dstWords (m ((c : Thread nD τ).loc main_arg1))) := (s4_keep_v17 (W6 m ρ c)).trans (exit1_col m ρ c)
theorem entry2_arg5 (c : Dev nD) : W7 m ρ c (Proc.devRef .tc main_arg5) = (m ((c : Thread nD τ).loc main_arg5)) := (s4_keep_arg5 (W6 m ρ c)).trans (exit1_arg5 m ρ c)

/-- THE RESULT ARRAY at the end of the run is `kernelArr` of the arguments. -/
theorem result_eq (c : Dev nD) : W8 m ρ c (Proc.devRef .tc main_v43)
    = kernelArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ((region2_out (V7 m ρ) c).trans ?_)
  show scaledBiasedArr2 (W7 m ρ c (Proc.devRef .tc main_v42)) (W7 m ρ c (Proc.devRef .tc main_v17)) (W7 m ρ c (Proc.devRef .tc main_arg5)) = _
  rw [entry2_agg, entry2_col, entry2_arg5]
  rfl

/-- The run of the idealized kernel program: it ends with the result array at `kernelArr` of the arguments, and the
    arguments unchanged. -/
theorem run : θ_run defs (onTc (τ := τ) (main (F := Ideal))) ⟨m, fun _ => 0, ρ⟩ (fun r => ∀ c : Dev nD,
      r.2.mem ((c.tc : Thread nD τ).loc main_v43) = kernelArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_out m ρ)

end Cert.KernelIdeal.Out

end
-- ==== Proof.LibRowTakeAdd.lean ====
/-
  Taking rows of, and adding rows into, a two-axis array at a column of index words.

  What h[src] and a segment sum over rows lower to, for an operand [N, C] and a column of index words [R, 1]: a
  gather of whole rows, and an accumulating scatter of whole rows.

  The gather's result row e is the operand's row at the word idx[e, 0], read as a signed integer and clamped into
  [0, N - 1]; the column is kept. The scatter sends update row e to the operand row idx[e, 0], read as a signed
  integer and not clamped, column to column; an update whose word is not a row of the operand is dropped. So the
  accumulated result at (p, k) is the operand's element plus the sum, over the update rows e whose word denotes p,
  of the update's element (e, k). The row an index word selects does not depend on the extent C of the rows.
-/
import Idealize.ShloMosaic.Lib.ValueIdx

noncomputable section

open scoped BigOperators

namespace Cert.RowTakeAdd

open Idealize.ShloMosaic Idealize.ShloMosaic.ValueIdx

section Take
variable {α : Type}

/-- The gather's dimension numbers for an operand [N, C], start indices [R, 1] and result [R, C]: one start
    component per result row, naming operand axis 0, which is collapsed; whole rows of C elements are read. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start word selects: the word read as a signed integer, clamped into [0, N - 1]. -/
def takeRow (N : Nat) {w : Nat} (hN : 0 < N) (v : BitVec w) : Fin N := ⟨min v.toInt.toNat (N - 1), by omega⟩

/-- The gather read at (e, k): the operand at row `takeRow` of the word idx[e, 0] and at column k. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGatherDims N R C wf) x idx (ix2 e k)
      = x (ix2 (takeRow N hN (idx (ix2 e (0 : Fin 1)))) k) := by
  unfold Host.gather
  refine congrArg x ?_
  funext a
  refine Fin.ext ?_
  match a with
  | ⟨0, _⟩ =>
    show (rowGatherDims N R C wf).start (ix2 e k) idx 0 + (rowGatherDims N R C wf).batchCoord (ix2 e k) 0
      + (rowGatherDims N R C wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e k) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e k) idx 1 + (rowGatherDims N R C wf).batchCoord (ix2 e k) 1
      + (rowGatherDims N R C wf).offCoord (ix2 e k) 1 = k.val
    rw [GatherDims.batchCoord_eq_zero _ _ _ List.not_mem_nil]
    have hst : (rowGatherDims N R C wf).start (ix2 e k) idx 1 = 0 := by
      unfold GatherDims.start
      rw [dif_neg]
      intro h
      exact absurd (List.mem_singleton.mp h) (show ¬ ((1 : Fin 2) = 0) by decide)
    have hoff : (rowGatherDims N R C wf).offCoord (ix2 e k) 1 = k.val := by
      unfold GatherDims.offCoord
      rw [dif_pos ((GatherDims.mem_sKept _ _).mpr ⟨fun h => absurd (List.mem_singleton.mp h) (show ¬ ((1 : Fin 2) = 0) by decide), List.not_mem_nil⟩)]
      rfl
    rw [hst, hoff]
    omega

end Take

section Add

/-- The scatter's dimension numbers for an operand [N, C], scatter indices [R, 1] and updates [R, C]: one index
    component per update row, naming operand axis 0, which is inserted; the updates' axis 1 is the window. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the row axis the window of update (e, k) starts at the word idx[e, 0], read signed. -/
private theorem start_row {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e k) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0: no index component names that axis. -/
private theorem start_col {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 1 = 0 := by
  unfold ScatterDims.start
  rw [dif_neg]
  intro h
  exact absurd (List.mem_singleton.mp h) (show ¬ ((1 : Fin 2) = 0) by decide)

/-- The row axis is inserted: its window coordinate is 0. -/
private theorem window_row {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 0 = 0 := by
  unfold ScatterDims.window
  rw [dif_neg]
  intro h
  have := (List.mem_filter.1 h).2
  simp at this

/-- The column axis is the window: its coordinate is the update's column. -/
private theorem window_col {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 1 = k.val := by
  unfold ScatterDims.window
  rw [dif_pos (show (1 : Fin 2) ∈ (rowScatterDims N R C wf).sKept from
    List.mem_filter.2 ⟨List.mem_finRange _, by simp⟩)]
  rfl

/-- Where update (e, k) lands: at (p, k') exactly when the word idx[e, 0], read signed, is the row p, and k' is k. -/
theorem resultIdx_rows_iff {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) (p : Fin N) (k' : Fin C) :
    (rowScatterDims N R C wf).resultIdx? (ix2 e k) idx = some (ix2 p k')
      ↔ (idx (ix2 e (0 : Fin 1))).toInt = (p.val : Int) ∧ k = k' := by
  have h0 : (rowScatterDims N R C wf).start (ix2 e k) idx 0 + (((rowScatterDims N R C wf).window (ix2 e k) 0 : Nat) : Int)
      = (idx (ix2 e (0 : Fin 1))).toInt := by
    rw [start_row, window_row]; simp
  have h1 : (rowScatterDims N R C wf).start (ix2 e k) idx 1 + (((rowScatterDims N R C wf).window (ix2 e k) 1 : Nat) : Int)
      = (k.val : Int) := by
    rw [start_col, window_col]; simp
  unfold ScatterDims.resultIdx?
  constructor
  · intro h
    split at h
    · rename_i hin
      have hf := Option.some.inj h
      have e0 : ((rowScatterDims N R C wf).start (ix2 e k) idx 0
          + (((rowScatterDims N R C wf).window (ix2 e k) 0 : Nat) : Int)).toNat = p.val :=
        congrArg (fun f : (⟨2, ![N, C]⟩ : Shape).Idx => (f 0).val) hf
      have e1 : ((rowScatterDims N R C wf).start (ix2 e k) idx 1
          + (((rowScatterDims N R C wf).window (ix2 e k) 1 : Nat) : Int)).toNat = k'.val :=
        congrArg (fun f : (⟨2, ![N, C]⟩ : Shape).Idx => (f 1).val) hf
      have hn := (hin 0).1
      rw [h0] at e0 hn
      rw [h1] at e1
      refine ⟨by omega, Fin.ext (by omega)⟩
    · exact absurd h (by simp)
  · rintro ⟨hv, rfl⟩
    have hin : ∀ a, 0 ≤ (rowScatterDims N R C wf).start (ix2 e k) idx a + ((rowScatterDims N R C wf).window (ix2 e k) a : Int)
        ∧ (rowScatterDims N R C wf).start (ix2 e k) idx a + ((rowScatterDims N R C wf).window (ix2 e k) a : Int)
          < ((⟨2, ![N, C]⟩ : Shape).size a : Int) := by
      intro a
      match a with
      | ⟨0, _⟩ =>
        show 0 ≤ (rowScatterDims N R C wf).start (ix2 e k) idx 0 + (((rowScatterDims N R C wf).window (ix2 e k) 0 : Nat) : Int)
          ∧ (rowScatterDims N R C wf).start (ix2 e k) idx 0 + (((rowScatterDims N R C wf).window (ix2 e k) 0 : Nat) : Int)
            < ((N : Nat) : Int)
        rw [h0, hv]
        have := p.isLt
        omega
      | ⟨1, _⟩ =>
        show 0 ≤ (rowScatterDims N R C wf).start (ix2 e k) idx 1 + (((rowScatterDims N R C wf).window (ix2 e k) 1 : Nat) : Int)
          ∧ (rowScatterDims N R C wf).start (ix2 e k) idx 1 + (((rowScatterDims N R C wf).window (ix2 e k) 1 : Nat) : Int)
            < ((C : Nat) : Int)
        rw [h1]
        have := k.isLt
        omega
    rw [dif_pos hin]
    refine congrArg some ?_
    funext a
    refine Fin.ext ?_
    match a with
    | ⟨0, _⟩ =>
      show ((rowScatterDims N R C wf).start (ix2 e k) idx 0
        + (((rowScatterDims N R C wf).window (ix2 e k) 0 : Nat) : Int)).toNat = p.val
      rw [h0, hv]
      exact Int.toNat_natCast _
    | ⟨1, _⟩ =>
      show ((rowScatterDims N R C wf).start (ix2 e k) idx 1
        + (((rowScatterDims N R C wf).window (ix2 e k) 1 : Nat) : Int)).toNat = k.val
      rw [h1]
      exact Int.toNat_natCast _

/-- The accumulating scatter read at (p, k): the operand's element plus the sum, over the update rows e whose word
    idx[e, 0] read signed is the row p, of the update's element (e, k). -/
theorem scatterAdd_rows_apply {N R C w : Nat} {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (p : Fin N) (k : Fin C) :
    Host.scatterAdd (F := Ideal) (rowScatterDims N R C wf) x idx upd (ix2 p k)
      = x (ix2 p k) + ∑ e ∈ Finset.univ.filter
          (fun e : Fin R => (idx (ix2 e (0 : Fin 1))).toInt = (p.val : Int)), upd (ix2 e k) := by
  show Ideal.hostScatterAdd (rowScatterDims N R C wf) x idx upd (ix2 p k) = _
  unfold Ideal.hostScatterAdd
  refine congrArg (fun t => x (ix2 p k) + t) ?_
  rw [Finset.sum_filter, Finset.sum_filter, sum_idx2]
  refine Finset.sum_congr rfl fun e _ => ?_
  by_cases hv : (idx (ix2 e (0 : Fin 1))).toInt = (p.val : Int)
  · rw [if_pos hv, Finset.sum_eq_single k]
    · rw [if_pos ((resultIdx_rows_iff wf idx e k p k).mpr ⟨hv, rfl⟩)]
    · intro b _ hb
      rw [if_neg]
      intro h
      exact hb ((resultIdx_rows_iff wf idx e b p k).mp h).2
    · intro h
      exact absurd (Finset.mem_univ _) h
  · rw [if_neg hv]
    refine Finset.sum_eq_zero fun b _ => ?_
    rw [if_neg]
    intro h
    exact hv ((resultIdx_rows_iff wf idx e b p k).mp h).1

end Add

end Cert.RowTakeAdd

end
-- ==== Proof.LibERealSum.lean ====
/-
  General laws of finite sums of extended reals, with no finiteness asked of the terms.
  Multiplication on the extended reals does not distribute over addition in general (∞ - ∞), but a factor
  that is nonnegative and not +∞ does, on either side; so such a factor moves across any finite sum. This
  is what lets a scale folded into one operand of a contraction (x · c inside the sum) meet the same scale
  applied to the contraction's result (the sum times c, or the sum divided by 1/c) without a precondition
  on the inputs. Also: a sum over `Fin (m * n)` as a double sum over `m` blocks of `n`.
-/
import Mathlib.Data.EReal.Operations
import Mathlib.Algebra.BigOperators.Fin
import Mathlib.Logic.Equiv.Fin.Basic

namespace Cert.Lib.ERealSum

open scoped BigOperators

/-- A nonnegative finite factor on the right moves across a finite sum of extended reals. -/
theorem sum_mul_const {ι : Type*} (t : Finset ι) (f : ι → EReal) {c : EReal} (h0 : 0 ≤ c) (ht : c ≠ ⊤) :
    (∑ k ∈ t, f k) * c = ∑ k ∈ t, f k * c := by
  classical
  induction t using Finset.induction_on with
  | empty => simp
  | insert a t ha ih =>
    rw [Finset.sum_insert ha, Finset.sum_insert ha, EReal.right_distrib_of_nonneg_of_ne_top h0 ht, ih]

/-- The same with the factor on the left. -/
theorem mul_sum_const {ι : Type*} (t : Finset ι) (f : ι → EReal) {c : EReal} (h0 : 0 ≤ c) (ht : c ≠ ⊤) :
    c * (∑ k ∈ t, f k) = ∑ k ∈ t, c * f k :=
  (EReal.mul_comm _ _).trans
    ((sum_mul_const t f h0 ht).trans (Finset.sum_congr rfl fun k _ => EReal.mul_comm _ _))

/-- A sum over `Fin (m * n)` is the sum over the `m` blocks of the sums over their `n` entries: entry `i` of
    block `c` is position `i + n * c`. -/
theorem sum_fin_blocks {M : Type*} [AddCommMonoid M] (m n : ℕ) (f : Fin (m * n) → M) :
    ∑ j : Fin (m * n), f j = ∑ c : Fin m, ∑ i : Fin n, f (finProdFinEquiv (c, i)) := by
  rw [← Equiv.sum_comp (finProdFinEquiv (m := m) (n := n)) f, Fintype.sum_prod_type]

end Cert.Lib.ERealSum
-- ==== Proof.Spec.lean ====
/-
  A two-layer graph convolution with symmetric normalization, written two ways over the extended reals.

  The graph is a list of 1100000 edges; edge e sends the row `rowOf sI e` of a node array to the node p it lands at
  (`e ∈ landing dI p`: the destination word of e, read as a signed integer, is p). Each node r has a scale D r.

  Written per edge (the second way below), the message of edge e is the source row times
  `D (source of e) · D (destination of e)`, and a node sums the messages that land at it. Written per node (the first way),
  every row is scaled by its own D before it is sent, and the sum a node receives is scaled by that node's D afterwards.
  The two agree because the edges that land at p all have destination p, so the second factor is the constant D p on the
  sum, and a factor that is nonnegative and not +∞ moves across a finite sum of extended reals whatever the terms are.
  No finiteness of the node features, the weights or the biases is used.
-/
import proofs.«145911_j41850161332531_2_alg».proof.Proof.LibRowTakeAdd
import proofs.«145911_j41850161332531_2_alg».proof.Proof.LibERealSum
import Idealize.ShloMosaic.PureOps.Ideal

noncomputable section

open scoped BigOperators

namespace Cert.Gcn

open Idealize.ShloMosaic Idealize.ShloMosaic.ValueIdx Cert.RowTakeAdd

/-- One 32-bit index word per edge, kept as a column. -/
abbrev Col := IVec ⟨2, ![1100000, 1]⟩ 32

/-- The node row a column's word for edge `e` selects when rows are taken: read signed, clamped into the 100000 rows. -/
def rowOf (I : Col) (e : Fin 1100000) : Fin 100000 := takeRow 100000 (by decide) (I (ix2 e (0 : Fin 1)))

/-- The edges whose word, read signed and NOT clamped, is the node `p`: the edges an accumulating scatter lands at `p`. -/
def landing (dI : Col) (p : Fin 100000) : Finset (Fin 1100000) :=
  Finset.univ.filter (fun e : Fin 1100000 => (dI (ix2 e (0 : Fin 1))).toInt = (p.val : Int))

/-- max(a, 0), the zero being the float word 0. -/
def relu (a : EReal) : EReal := max a (Ideal.ofBits .f32 0x00000000#32)

section
variable (sI dI wI : Col) (D : (⟨1, ![100000]⟩ : Shape).Idx → EReal)
variable (x : (⟨2, ![100000, 128]⟩ : Shape).Idx → EReal) (W1 : (⟨2, ![128, 64]⟩ : Shape).Idx → EReal)
  (b1 : (⟨1, ![64]⟩ : Shape).Idx → EReal) (W2 : (⟨2, ![64, 32]⟩ : Shape).Idx → EReal) (b2 : (⟨1, ![32]⟩ : Shape).Idx → EReal)

/-- The per-edge weight: the scale of the edge's source row times the scale of the row its destination word selects. -/
def norm (e : Fin 1100000) : EReal := D (ix1 (rowOf sI e)) * D (ix1 (rowOf wI e))

/-- The first linear layer, row r, channel k. -/
def lin1 (r : Fin 100000) (k : Fin 64) : EReal := ∑ j : Fin 128, x (ix2 r j) * W1 (ix2 j k)

/-- A second linear layer over any activations, row r, channel q. -/
def lin2 (act : Fin 100000 → Fin 64 → EReal) (r : Fin 100000) (q : Fin 32) : EReal :=
  ∑ k : Fin 64, act r k * W2 (ix2 k q)

/-- Hidden activations, written per edge. -/
def actEdge (r : Fin 100000) (k : Fin 64) : EReal :=
  relu ((∑ e ∈ landing dI r, lin1 x W1 (rowOf sI e) k * norm sI wI D e) + b1 (ix1 k))

/-- The output, written per edge. -/
def outEdge (p : Fin 100000) (q : Fin 32) : EReal :=
  (∑ e ∈ landing dI p, lin2 W2 (actEdge sI dI wI D x W1 b1) (rowOf sI e) q * norm sI wI D e) + b2 (ix1 q)

/-- Hidden activations, written per node: rows scaled before they are sent, the received sum scaled afterwards. -/
def actNode (r : Fin 100000) (k : Fin 64) : EReal :=
  relu ((∑ e ∈ landing dI r, lin1 x W1 (rowOf sI e) k * D (ix1 (rowOf sI e))) * D (ix1 r) + b1 (ix1 k))

/-- The output, written per node. -/
def outNode (p : Fin 100000) (q : Fin 32) : EReal :=
  (∑ e ∈ landing dI p, lin2 W2 (actNode sI dI D x W1 b1) (rowOf sI e) q * D (ix1 (rowOf sI e))) * D (ix1 p) + b2 (ix1 q)

variable (hD0 : ∀ r, 0 ≤ D r) (hDt : ∀ r, D r ≠ ⊤) (hw : ∀ e p, e ∈ landing dI p → rowOf wI e = p)
include hD0 hDt hw

/-- One aggregation: scaling the received sum by D p is scaling every message by D of its destination. -/
theorem agg_law (A : Fin 100000 → EReal) (p : Fin 100000) :
    (∑ e ∈ landing dI p, A (rowOf sI e) * D (ix1 (rowOf sI e))) * D (ix1 p)
      = ∑ e ∈ landing dI p, A (rowOf sI e) * norm sI wI D e := by
  rw [Cert.Lib.ERealSum.sum_mul_const _ _ (hD0 _) (hDt _)]
  refine Finset.sum_congr rfl fun e he => ?_
  unfold norm
  rw [hw e p he, mul_assoc]

theorem actNode_eq : actNode sI dI D x W1 b1 = actEdge sI dI wI D x W1 b1 := by
  funext r k
  unfold actNode actEdge
  rw [agg_law sI dI wI D hD0 hDt hw (fun r' => lin1 x W1 r' k) r]

/-- The two ways of writing the network agree. -/
theorem outNode_eq : outNode sI dI D x W1 b1 W2 b2 = outEdge sI dI wI D x W1 b1 W2 b2 := by
  funext p q
  unfold outNode outEdge
  rw [actNode_eq sI dI wI D x W1 b1 hD0 hDt hw,
    agg_law sI dI wI D hD0 hDt hw (fun r' => lin2 W2 (actEdge sI dI wI D x W1 b1) r' q) p]

end

end Cert.Gcn

end
-- ==== Proof.KernelAt.lean ====
/-
  The kernel program's result array, read at one entry.

  Read at (p, q), each aggregation is a sum over the edges whose destination word, read signed, is p, of the row the
  edge's source word selects; the scale column at row r is the node's scale; converting to the short float format is
  the identity. So the array is the per-node form of the network: every row scaled by its node's scale before it is
  sent, the received sum scaled by the receiving node's scale afterwards.
-/
import proofs.«145911_j41850161332531_2_alg».proof.Proof.KernelArr
import proofs.«145911_j41850161332531_2_alg».proof.Proof.Spec
import proofs.«145911_j41850161332531_2_alg».proof.Proof.LibRowTakeAdd
import proofs.«145911_j41850161332531_2_alg».proof.Proof.LibKeepdims

noncomputable section

open scoped BigOperators

namespace Cert.KernelIdeal.Out

open Cert.KernelIdeal Cert.KernelIdeal.Gen Idealize.ShloMosaic Idealize.ShloMosaic.ValueIdx Cert.Gcn

/-- The scale column at row r is the scale of node r. -/
theorem col_at (dw : IVec S1100000 32) (r : Fin 100000) :
    nodeScaleCol dw (ix2 r (0 : Fin 1)) = nodeScale dw (ix1 r) :=
  Cert.Keepdims.host_column_apply (a := 100000) (nodeScale dw) bcast_S100000_S100000x1_0 r 0

/-- The zero array [100000, 64] at an entry. -/
theorem zeros64_at (r : Fin 100000) (k : Fin 64) :
    (broadcastInDim S100000x64 ![] bcast_S_S100000x64 (constant (F := Ideal) S_ .f32 0x00000000#32) : FVec Ideal S100000x64 .f32) (ix2 r k) = (0 : EReal) := by
  refine (broadcastInDim_apply _ bcast_S_S100000x64 (constant (F := Ideal) S_ .f32 0x00000000#32) (ix2 r k) (fun a => a.elim0) (fun a => a.elim0)).trans ?_
  exact Ideal.ofBits_zero_f32

/-- The zero array [100000, 32] at an entry. -/
theorem zeros32_at (r : Fin 100000) (q : Fin 32) :
    (broadcastInDim S100000x32 ![] bcast_S_S100000x32 (constant (F := Ideal) S_ .f32 0x00000000#32) : FVec Ideal S100000x32 .f32) (ix2 r q) = (0 : EReal) := by
  refine (broadcastInDim_apply _ bcast_S_S100000x32 (constant (F := Ideal) S_ .f32 0x00000000#32) (ix2 r q) (fun a => a.elim0) (fun a => a.elim0)).trans ?_
  exact Ideal.ofBits_zero_f32

/-- An aggregation of a [100000, 64] array at (p, k): the sum over the edges landing at p of the source rows. -/
theorem aggregate64_at (sw dw : IVec S1100000 32) (H : FVec Ideal S100000x64 .f32) (p : Fin 100000) (k : Fin 64) :
    aggregate64 sw dw H (ix2 p k) = ∑ e ∈ landing (putCol dw) p, H (ix2 (rowOf (takeCol sw) e) k) := by
  unfold aggregate64
  refine (Cert.RowTakeAdd.scatterAdd_rows_apply (N := 100000) (R := 1100000) (C := 64) (φ := .f32)
    scatter_S100000x64_S1100000x1_S1100000x64_1_0_0_1.wf _ (putCol dw) _ p k).trans ?_
  rw [zeros64_at, zero_add]
  unfold landing
  refine Finset.sum_congr rfl fun e _ => ?_
  exact Cert.RowTakeAdd.gather_rows_apply (N := 100000) (R := 1100000) (C := 64) (by decide)
    gather_S100000x64_S1100000x1_S1100000x64_1_0_n_n_0_1_164.wf H (takeCol sw) e k

/-- The same for a [100000, 32] array. -/
theorem aggregate32_at (sw dw : IVec S1100000 32) (H : FVec Ideal S100000x32 .f32) (p : Fin 100000) (q : Fin 32) :
    aggregate32 sw dw H (ix2 p q) = ∑ e ∈ landing (putCol dw) p, H (ix2 (rowOf (takeCol sw) e) q) := by
  unfold aggregate32
  refine (Cert.RowTakeAdd.scatterAdd_rows_apply (N := 100000) (R := 1100000) (C := 32) (φ := .f32)
    scatter_S100000x32_S1100000x1_S1100000x32_1_0_0_1.wf _ (putCol dw) _ p q).trans ?_
  rw [zeros32_at, zero_add]
  unfold landing
  refine Finset.sum_congr rfl fun e _ => ?_
  exact Cert.RowTakeAdd.gather_rows_apply (N := 100000) (R := 1100000) (C := 32) (by decide)
    gather_S100000x32_S1100000x1_S1100000x32_1_0_n_n_0_1_132.wf H (takeCol sw) e q

section
variable (x : FVec Ideal S100000x128 .f32) (ei : IVec S2x1000000 32) (W1 : FVec Ideal S128x64 .f32)
  (b1 : FVec Ideal S64 .f32) (W2 : FVec Ideal S64x32 .f32) (b2 : FVec Ideal S32 .f32)

/-- The first region's output at (r, k): the first linear layer's row r scaled by node r's scale. -/
theorem product0_at (r : Fin 100000) (k : Fin 64) :
    scaledProductArr0 (truncf .bf16 x bitsLt_bf16_f32) (truncf .bf16 W1 bitsLt_bf16_f32) (nodeScaleCol (dstWords ei)) (ix2 r k)
      = lin1 x W1 r k * nodeScale (dstWords ei) (ix1 r) := by
  show scaledProduct0 _ _ _ r k = _
  unfold scaledProduct0 lin1
  rw [col_at]
  rfl

/-- The first aggregation at (r, k). -/
theorem agg1_at (r : Fin 100000) (k : Fin 64) :
    aggregate64 (srcWords ei) (dstWords ei)
        (scaledProductArr0 (truncf .bf16 x bitsLt_bf16_f32) (truncf .bf16 W1 bitsLt_bf16_f32) (nodeScaleCol (dstWords ei))) (ix2 r k)
      = ∑ e ∈ landing (putCol (dstWords ei)) r,
          lin1 x W1 (rowOf (takeCol (srcWords ei)) e) k * nodeScale (dstWords ei) (ix1 (rowOf (takeCol (srcWords ei)) e)) := by
  rw [aggregate64_at]
  exact Finset.sum_congr rfl fun e _ => product0_at x ei W1 _ k

/-- The second region's output at (r, q): the second linear layer over the per-node activations, scaled by node r's scale. -/
theorem hidden1_at (r : Fin 100000) (q : Fin 32) :
    hiddenProductArr1
        (aggregate64 (srcWords ei) (dstWords ei)
          (scaledProductArr0 (truncf .bf16 x bitsLt_bf16_f32) (truncf .bf16 W1 bitsLt_bf16_f32) (nodeScaleCol (dstWords ei))))
        (nodeScaleCol (dstWords ei)) b1 (truncf .bf16 W2 bitsLt_bf16_f32) (ix2 r q)
      = lin2 W2 (actNode (takeCol (srcWords ei)) (putCol (dstWords ei)) (nodeScale (dstWords ei)) x W1 b1) r q
          * nodeScale (dstWords ei) (ix1 r) := by
  show hiddenProduct1 _ _ _ _ r q = _
  unfold hiddenProduct1 lin2
  rw [col_at]
  refine congrArg₂ (· * ·) (Finset.sum_congr rfl fun k _ => congrArg₂ (· * ·) ?_ rfl) rfl
  unfold actNode relu
  rw [agg1_at]

/-- THE RESULT at (p, q): the per-node form of the network. -/
theorem kernelArr_at (p : Fin 100000) (q : Fin 32) :
    kernelArr x ei W1 b1 W2 b2 (ix2 p q)
      = outNode (takeCol (srcWords ei)) (putCol (dstWords ei)) (nodeScale (dstWords ei)) x W1 b1 W2 b2 p q := by
  unfold kernelArr
  show scaledBiased2 _ _ _ p q = _
  unfold scaledBiased2 outNode
  rw [col_at, aggregate32_at]
  refine congrArg₂ (· + ·) (congrArg₂ (· * ·) (Finset.sum_congr rfl fun e _ => ?_) rfl) rfl
  exact hidden1_at x ei W1 b1 W2 _ q

end

end Cert.KernelIdeal.Out

end
-- ==== Proof.LibFlatTakePut.lean ====
/-
  Taking from and putting into a flat array at a column of index words.

  What x[idx] and x.at[idx].set(v) of a flat array x : [N] at an integer vector idx : [R] lower to, once the index
  vector is seen as a column [R, 1]: a gather, and a scatter, with one index component per row.

  The gather reads, for result position r, the operand at the word idx[r, 0] taken as a signed integer and clamped
  into [0, N - 1]. The scatter sends update position r to the operand position idx[r, 0], taken as a signed integer
  and not clamped; the update is dropped when that integer is not a position of the operand. So when the word denotes,
  as a signed integer, a position k of the operand, the update at r lands at k.
-/
import Idealize.ShloMosaic.Lib.ValueIdx

noncomputable section

namespace Cert.FlatTakePut

open Idealize.ShloMosaic Idealize.ShloMosaic.ValueIdx

/-- The index [r, 0] of the column of words, for position r of the vector. -/
abbrev colIdx {R : Nat} (j : (⟨1, ![R]⟩ : Shape).Idx) : (⟨2, ![R, 1]⟩ : Shape).Idx :=
  fun a => match a with | ⟨0, _⟩ => ⟨(j 0).val, (j 0).isLt⟩ | ⟨1, _⟩ => ⟨0, Nat.one_pos⟩

section Take
variable {α : Type}

/-- The gather's dimension numbers for an operand [N], start indices [R, 1] and result [R]. -/
abbrev takeFlatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at position `j`: the operand at the word `idx[j, 0]`, read signed and clamped into [0, N - 1]. -/
theorem gather_flat_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (takeFlatDims N R wf) x idx j = x (ix1 ⟨min (idx (colIdx j)).toInt.toNat (N - 1), by omega⟩) := by
  unfold Host.gather
  refine congrArg x ?_
  funext a
  obtain rfl : a = 0 := Subsingleton.elim _ _
  refine Fin.ext ?_
  show (takeFlatDims N R wf).start j idx 0 + (takeFlatDims N R wf).batchCoord j 0 + (takeFlatDims N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeFlatDims N R wf).startIndexMap from List.mem_singleton.mpr rfl)]
  have hsi : (takeFlatDims N R wf).siIdx j ⟨List.idxOf (0 : Fin 1) (takeFlatDims N R wf).startIndexMap,
      List.idxOf_lt_length_iff.2 (List.mem_singleton.mpr rfl)⟩ = colIdx j := by
    funext b; refine Fin.ext ?_
    match b with
    | ⟨0, _⟩ => rfl
    | ⟨1, _⟩ => rfl
  rw [hsi]
  rfl

end Take

section Put

/-- The scatter's dimension numbers for an operand [N], scatter indices [R, 1] and updates [R]. -/
abbrev putFlatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update `j` lands: when the word `idx[j, 0]`, read signed, is the position `k` of the operand, at `k`. -/
theorem resultIdx_flat {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (k : Fin N)
    (hk : (idx (colIdx j)).toInt = (k.val : Int)) :
    (putFlatDims N R wf).resultIdx? j idx = some (ix1 k) := by
  have hs : ∀ a : Fin 1, (putFlatDims N R wf).start j idx a + ((putFlatDims N R wf).window j a : Int) = (k.val : Int) := by
    intro a
    obtain rfl : a = 0 := Subsingleton.elim _ _
    have hw : (putFlatDims N R wf).window j 0 = 0 := by
      unfold ScatterDims.window
      rw [dif_neg]
      intro h
      have := (List.mem_filter.1 h).2
      simp at this
    have hst : (putFlatDims N R wf).start j idx 0 = (k.val : Int) := by
      unfold ScatterDims.start
      rw [dif_pos (show (0 : Fin 1) ∈ (putFlatDims N R wf).scatterDimsToOperandDims from List.mem_singleton.mpr rfl)]
      have hsi : (putFlatDims N R wf).siIdx j ⟨List.idxOf (0 : Fin 1) (putFlatDims N R wf).scatterDimsToOperandDims,
          List.idxOf_lt_length_iff.2 (List.mem_singleton.mpr rfl)⟩ = colIdx j := by
        funext b; refine Fin.ext ?_
        match b with
        | ⟨0, _⟩ => rfl
        | ⟨1, _⟩ => rfl
      rw [hsi, hk]
    rw [hst, hw]
    simp
  unfold ScatterDims.resultIdx?
  have hin : ∀ a : Fin 1, 0 ≤ (putFlatDims N R wf).start j idx a + ((putFlatDims N R wf).window j a : Int)
      ∧ (putFlatDims N R wf).start j idx a + ((putFlatDims N R wf).window j a : Int) < ((⟨1, ![N]⟩ : Shape).size a : Int) := by
    intro a
    rw [hs a]
    obtain rfl : a = 0 := Subsingleton.elim _ _
    exact ⟨Int.natCast_nonneg _, by exact_mod_cast k.isLt⟩
  rw [dif_pos hin]
  refine congrArg some ?_
  funext a
  obtain rfl : a = 0 := Subsingleton.elim _ _
  refine Fin.ext ?_
  show ((putFlatDims N R wf).start j idx 0 + ((putFlatDims N R wf).window j 0 : Int)).toNat = k.val
  rw [hs 0]
  exact Int.toNat_natCast _

end Put

end Cert.FlatTakePut

end
-- ==== Proof.RefValue.lean ====
/-
  The reference program's result, read at one entry.

  The reference computes a two-layer graph convolution over a list of 1100000 edges. Each layer multiplies the node
  array by a weight matrix, takes for every edge the row of its source node, scales it by the edge's weight (the product
  of the scale of the source node and the scale of the wrapped destination node), adds the scaled rows into the row of
  the edge's destination node, and adds a bias; between the layers max(., 0) is applied.

  Read at entry (p, q), each accumulation is a sum over the edges whose destination word, read signed, is p; each
  row taking reads the row the source word selects when clamped into the node range. The stages below read the program
  one operation at a time and arrive at the per-edge form of the network.
-/
import proofs.«145911_j41850161332531_2_alg».proof.Proof.RefRead
import proofs.«145911_j41850161332531_2_alg».proof.Proof.Spec
import proofs.«145911_j41850161332531_2_alg».proof.Proof.LibRowTakeAdd
import proofs.«145911_j41850161332531_2_alg».proof.Proof.LibFlatTakePut

noncomputable section

open scoped BigOperators

namespace Cert.Gcn.Ref

open Cert.ReferenceIdeal Cert.ReferenceIdeal.Gen Cert.ReferenceIdeal.ReadP Idealize.ShloMosaic Idealize.ShloMosaic.ValueIdx Idealize.ShloMosaic.TcCoe Idealize.SL.Sem Idealize.ShloMosaic.StableHlo

variable (x0 : (⟨S100000x128, .f32⟩ : BufTy).Contents (Elt Ideal)) (x1 : (⟨S2x1000000, .i32⟩ : BufTy).Contents (Elt Ideal))
  (x2 : (⟨S128x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))

/-! ## Indices -/

/-- The column index [e, 0] of position e of a vector. -/
theorem colIdx_ix1 {R : Nat} (e : Fin R) : Cert.FlatTakePut.colIdx (ix1 e) = ix2 e (0 : Fin 1) := by
  funext a
  match a with
  | ⟨0, _⟩ => rfl
  | ⟨1, _⟩ => rfl

/-! ## The index columns: the three row takings use one column of source words, the three accumulations one column
    of destination words -/

theorem src_v22 : val_main_v22 (F := Ideal) x1 = val_main_v38 (F := Ideal) x1 := rfl
theorem src_v56 : val_main_v56 (F := Ideal) x1 = val_main_v38 (F := Ideal) x1 := rfl
theorem dst_v62 : val_main_v62 (F := Ideal) x1 = val_main_v44 (F := Ideal) x1 := rfl

/-! ## The per-edge weight -/

/-- Taking the scale at a column of words: position e reads the scale of the row the word selects. -/
theorem scale_take (I : Col) (e : Fin 1100000) :
    Host.gather gather_S100000_S1100000x1_S1100000_n_0_n_n_0_1_1 (val_main_v16 (F := Ideal) x1) I (ix1 e)
      = val_main_v16 (F := Ideal) x1 (ix1 (rowOf I e)) := by
  refine (Cert.FlatTakePut.gather_flat_apply (N := 100000) (R := 1100000) (by decide) _
    (val_main_v16 (F := Ideal) x1) I (ix1 e)).trans ?_
  refine congrArg (fun r : Fin 100000 => val_main_v16 (F := Ideal) x1 (ix1 r)) (Fin.ext ?_)
  show min (I (Cert.FlatTakePut.colIdx (ix1 e))).toInt.toNat (100000 - 1)
    = min (I (ix2 e (0 : Fin 1))).toInt.toNat (100000 - 1)
  rw [colIdx_ix1]

/-- The weight of edge e: the scale of its source row times the scale of its wrapped destination row. -/
theorem v31_at (e : Fin 1100000) :
    val_main_v31 (F := Ideal) x1 (ix1 e)
      = norm (val_main_v38 (F := Ideal) x1) (val_main_v29 (F := Ideal) x1) (val_main_v16 (F := Ideal) x1) e := by
  have h23 : val_main_v23 (F := Ideal) x1 (ix1 e)
      = val_main_v16 (F := Ideal) x1 (ix1 (rowOf (val_main_v38 (F := Ideal) x1) e)) :=
    scale_take x1 (val_main_v38 (F := Ideal) x1) e
  have h30 : val_main_v30 (F := Ideal) x1 (ix1 e)
      = val_main_v16 (F := Ideal) x1 (ix1 (rowOf (val_main_v29 (F := Ideal) x1) e)) :=
    scale_take x1 (val_main_v29 (F := Ideal) x1) e
  refine (mulf_apply (val_main_v23 (F := Ideal) x1) (val_main_v30 (F := Ideal) x1) (ix1 e)).trans ?_
  rw [h23, h30]
  rfl

/-! ## The first layer -/

/-- The first linear layer at (r, k). -/
theorem v32_at (r : Fin 100000) (k : Fin 64) :
    val_main_v32 (F := Ideal) x0 x2 (ix2 r k) = lin1 x0 x2 r k := by
  refine (val_main_v32_apply x0 x2 (ix2 r k)).trans ?_
  unfold lin1
  refine Finset.sum_congr rfl fun j _ => ?_
  have hl : lidx_main_v32 (ix2 r k) j = ix2 r j := by
    funext a
    match a with
    | ⟨0, _⟩ => rfl
    | ⟨1, _⟩ => rfl
  have hr : ridx_main_v32 (ix2 r k) j = ix2 j k := by
    funext a
    match a with
    | ⟨0, _⟩ => rfl
    | ⟨1, _⟩ => rfl
  rw [hl, hr]

/-- The row of the first linear layer taken for edge e: the row of its source node. -/
theorem v39_at (e : Fin 1100000) (k : Fin 64) :
    val_main_v39 (F := Ideal) x0 x1 x2 (ix2 e k) = lin1 x0 x2 (rowOf (val_main_v38 (F := Ideal) x1) e) k := by
  refine (Cert.RowTakeAdd.gather_rows_apply (N := 100000) (R := 1100000) (C := 64) (by decide) _
    (val_main_v32 (F := Ideal) x0 x2) (val_main_v38 (F := Ideal) x1) e k).trans ?_
  exact v32_at x0 x2 _ k

/-- The weight of edge e, repeated along the 64 channels. -/
theorem v41_at (e : Fin 1100000) (k : Fin 64) :
    val_main_v41 (F := Ideal) x1 (ix2 e k)
      = norm (val_main_v38 (F := Ideal) x1) (val_main_v29 (F := Ideal) x1) (val_main_v16 (F := Ideal) x1) e := by
  refine (val_main_v41_apply x1 (ix2 e k)).trans ?_
  refine (val_main_v40_apply x1 _).trans ?_
  have hi : idx_main_v40 (idx_main_v41 (ix2 e k)) = ix1 e := by
    funext a
    match a with
    | ⟨0, _⟩ => rfl
  rw [hi]
  exact v31_at x1 e

/-- The message of edge e at channel k. -/
theorem v42_at (e : Fin 1100000) (k : Fin 64) :
    val_main_v42 (F := Ideal) x0 x1 x2 (ix2 e k)
      = lin1 x0 x2 (rowOf (val_main_v38 (F := Ideal) x1) e) k
        * norm (val_main_v38 (F := Ideal) x1) (val_main_v29 (F := Ideal) x1) (val_main_v16 (F := Ideal) x1) e := by
  refine (mulf_apply (val_main_v39 (F := Ideal) x0 x1 x2) (val_main_v41 (F := Ideal) x1) (ix2 e k)).trans ?_
  rw [v39_at, v41_at]

/-- The accumulation of the messages: node r receives the messages of the edges that land at r. -/
theorem v45_at (r : Fin 100000) (k : Fin 64) :
    val_main_v45 (F := Ideal) x0 x1 x2 (ix2 r k)
      = ∑ e ∈ landing (val_main_v44 (F := Ideal) x1) r,
          lin1 x0 x2 (rowOf (val_main_v38 (F := Ideal) x1) e) k
            * norm (val_main_v38 (F := Ideal) x1) (val_main_v29 (F := Ideal) x1) (val_main_v16 (F := Ideal) x1) e := by
  refine (Cert.RowTakeAdd.scatterAdd_rows_apply (N := 100000) (R := 1100000) (C := 64) (φ := .f32) _
    (val_main_v43 (F := Ideal)) (val_main_v44 (F := Ideal) x1) (val_main_v42 (F := Ideal) x0 x1 x2) r k).trans ?_
  have h0 : val_main_v43 (F := Ideal) (ix2 r k) = (0 : EReal) := by
    refine (val_main_v43_apply (F := Ideal) (ix2 r k)).trans ?_
    exact Ideal.ofBits_zero_f32
  rw [h0, zero_add]
  unfold landing
  exact Finset.sum_congr rfl fun e _ => v42_at x0 x1 x2 e k

/-- The first layer's bias at (r, k). -/
theorem v47_at (r : Fin 100000) (k : Fin 64) : val_main_v47 (F := Ideal) x3 (ix2 r k) = x3 (ix1 k) := by
  refine (val_main_v47_apply x3 (ix2 r k)).trans ?_
  refine (val_main_v46_apply x3 _).trans ?_
  refine congrArg x3 ?_
  funext a
  match a with
  | ⟨0, _⟩ => rfl

/-- The hidden activations at (r, k). -/
theorem v49_at (r : Fin 100000) (k : Fin 64) :
    val_main_v49 (F := Ideal) x0 x1 x2 x3 (ix2 r k)
      = actEdge (val_main_v38 (F := Ideal) x1) (val_main_v44 (F := Ideal) x1) (val_main_v29 (F := Ideal) x1)
          (val_main_v16 (F := Ideal) x1) x0 x2 x3 r k := by
  refine (maximumf_apply (val_main_v48 (F := Ideal) x0 x1 x2 x3) (val_main_call1_v0 (F := Ideal)) (ix2 r k)).trans ?_
  have hz : val_main_call1_v0 (F := Ideal) (ix2 r k) = Ideal.ofBits .f32 0x00000000#32 :=
    val_main_call1_v0_apply (F := Ideal) (ix2 r k)
  have h48 : val_main_v48 (F := Ideal) x0 x1 x2 x3 (ix2 r k)
      = (∑ e ∈ landing (val_main_v44 (F := Ideal) x1) r,
          lin1 x0 x2 (rowOf (val_main_v38 (F := Ideal) x1) e) k
            * norm (val_main_v38 (F := Ideal) x1) (val_main_v29 (F := Ideal) x1) (val_main_v16 (F := Ideal) x1) e)
        + x3 (ix1 k) := by
    refine (addf_apply (val_main_v45 (F := Ideal) x0 x1 x2) (val_main_v47 (F := Ideal) x3) (ix2 r k)).trans ?_
    rw [v45_at, v47_at]
  rw [hz, h48]
  rfl

/-! ## The second layer -/

/-- The second linear layer at (r, q), over the hidden activations. -/
theorem v50_at (r : Fin 100000) (q : Fin 32) :
    val_main_v50 (F := Ideal) x0 x1 x2 x3 x4 (ix2 r q)
      = lin2 x4 (actEdge (val_main_v38 (F := Ideal) x1) (val_main_v44 (F := Ideal) x1) (val_main_v29 (F := Ideal) x1)
          (val_main_v16 (F := Ideal) x1) x0 x2 x3) r q := by
  refine (val_main_v50_apply x0 x1 x2 x3 x4 (ix2 r q)).trans ?_
  unfold lin2
  refine Finset.sum_congr rfl fun k _ => ?_
  have hl : lidx_main_v50 (ix2 r q) k = ix2 r k := by
    funext a
    match a with
    | ⟨0, _⟩ => rfl
    | ⟨1, _⟩ => rfl
  have hr : ridx_main_v50 (ix2 r q) k = ix2 k q := by
    funext a
    match a with
    | ⟨0, _⟩ => rfl
    | ⟨1, _⟩ => rfl
  rw [hl, hr, v49_at]

/-- The row of the second linear layer taken for edge e: the row of its source node. -/
theorem v57_at (e : Fin 1100000) (q : Fin 32) :
    val_main_v57 (F := Ideal) x0 x1 x2 x3 x4 (ix2 e q)
      = lin2 x4 (actEdge (val_main_v38 (F := Ideal) x1) (val_main_v44 (F := Ideal) x1) (val_main_v29 (F := Ideal) x1)
          (val_main_v16 (F := Ideal) x1) x0 x2 x3) (rowOf (val_main_v38 (F := Ideal) x1) e) q := by
  refine (Cert.RowTakeAdd.gather_rows_apply (N := 100000) (R := 1100000) (C := 32) (by decide) _
    (val_main_v50 (F := Ideal) x0 x1 x2 x3 x4) (val_main_v38 (F := Ideal) x1) e q).trans ?_
  exact v50_at x0 x1 x2 x3 x4 _ q

/-- The weight of edge e, repeated along the 32 channels. -/
theorem v59_at (e : Fin 1100000) (q : Fin 32) :
    val_main_v59 (F := Ideal) x1 (ix2 e q)
      = norm (val_main_v38 (F := Ideal) x1) (val_main_v29 (F := Ideal) x1) (val_main_v16 (F := Ideal) x1) e := by
  refine (val_main_v59_apply x1 (ix2 e q)).trans ?_
  refine (val_main_v58_apply x1 _).trans ?_
  have hi : idx_main_v58 (idx_main_v59 (ix2 e q)) = ix1 e := by
    funext a
    match a with
    | ⟨0, _⟩ => rfl
  rw [hi]
  exact v31_at x1 e

/-- The second layer's message of edge e at channel q. -/
theorem v60_at (e : Fin 1100000) (q : Fin 32) :
    val_main_v60 (F := Ideal) x0 x1 x2 x3 x4 (ix2 e q)
      = lin2 x4 (actEdge (val_main_v38 (F := Ideal) x1) (val_main_v44 (F := Ideal) x1) (val_main_v29 (F := Ideal) x1)
          (val_main_v16 (F := Ideal) x1) x0 x2 x3) (rowOf (val_main_v38 (F := Ideal) x1) e) q
        * norm (val_main_v38 (F := Ideal) x1) (val_main_v29 (F := Ideal) x1) (val_main_v16 (F := Ideal) x1) e := by
  refine (mulf_apply (val_main_v57 (F := Ideal) x0 x1 x2 x3 x4) (val_main_v59 (F := Ideal) x1) (ix2 e q)).trans ?_
  rw [v57_at, v59_at]

/-- The second accumulation: node p receives the messages of the edges that land at p. -/
theorem v63_at (p : Fin 100000) (q : Fin 32) :
    val_main_v63 (F := Ideal) x0 x1 x2 x3 x4 (ix2 p q)
      = ∑ e ∈ landing (val_main_v44 (F := Ideal) x1) p,
          lin2 x4 (actEdge (val_main_v38 (F := Ideal) x1) (val_main_v44 (F := Ideal) x1) (val_main_v29 (F := Ideal) x1)
            (val_main_v16 (F := Ideal) x1) x0 x2 x3) (rowOf (val_main_v38 (F := Ideal) x1) e) q
            * norm (val_main_v38 (F := Ideal) x1) (val_main_v29 (F := Ideal) x1) (val_main_v16 (F := Ideal) x1) e := by
  refine (Cert.RowTakeAdd.scatterAdd_rows_apply (N := 100000) (R := 1100000) (C := 32) (φ := .f32) _
    (val_main_v61 (F := Ideal)) (val_main_v44 (F := Ideal) x1) (val_main_v60 (F := Ideal) x0 x1 x2 x3 x4) p q).trans ?_
  have h0 : val_main_v61 (F := Ideal) (ix2 p q) = (0 : EReal) := by
    refine (val_main_v61_apply (F := Ideal) (ix2 p q)).trans ?_
    exact Ideal.ofBits_zero_f32
  rw [h0, zero_add]
  unfold landing
  exact Finset.sum_congr rfl fun e _ => v60_at x0 x1 x2 x3 x4 e q

/-- The second layer's bias at (p, q). -/
theorem v65_at (p : Fin 100000) (q : Fin 32) : val_main_v65 (F := Ideal) x5 (ix2 p q) = x5 (ix1 q) := by
  refine (val_main_v65_apply x5 (ix2 p q)).trans ?_
  refine (val_main_v64_apply x5 _).trans ?_
  refine congrArg x5 ?_
  funext a
  match a with
  | ⟨0, _⟩ => rfl

/-! ## The result -/

/-- The reference's result at (p, q) is the per-edge form of the network over the reference's own source column,
    destination column, wrapped destination column and scale vector. -/
theorem ref_out (x0 : (⟨S100000x128, .f32⟩ : BufTy).Contents (Elt Ideal)) (x1 : (⟨S2x1000000, .i32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (p : Fin 100000) (q : Fin 32) :
    val_main_v66 (F := Ideal) x0 x1 x2 x3 x4 x5 (ix2 p q)
      = Cert.Gcn.outEdge (val_main_v38 (F := Ideal) x1) (val_main_v44 (F := Ideal) x1) (val_main_v29 (F := Ideal) x1) (val_main_v16 (F := Ideal) x1) x0 x2 x3 x4 x5 p q := by
  refine (addf_apply (val_main_v63 (F := Ideal) x0 x1 x2 x3 x4) (val_main_v65 (F := Ideal) x5) (ix2 p q)).trans ?_
  rw [v63_at, v65_at]
  rfl

end Cert.Gcn.Ref

end
-- ==== Proof.LibWordIndex.lean ====
/-
  Small numbers as 32-bit index words.

  An index computed in 32-bit words is read back by a gather as a SIGNED integer; jax first adds the
  axis' extent to a negative index. For a word that denotes a number below 2^31 neither matters: the
  signed reading is the number itself and the sign test is false. And 64 * r + w, computed in words
  for r < 16 and a word w below 64, denotes 64 r + w (nothing wraps).
-/
import Idealize.ShloMosaic.Lib.ValueIdx

open Idealize.ShloMosaic

namespace Cert.WordIndex

/-- The signed reading of a word below 2^31, as a natural number, is the number it denotes. -/
theorem toInt_toNat_of_lt (v : BitVec 32) (hv : v.toNat < 2 ^ 31) : v.toInt.toNat = v.toNat := by
  rw [BitVec.toInt_eq_toNat_cond]
  have : 2 * v.toNat < 2 ^ 32 := by omega
  rw [if_pos this]
  exact Int.toNat_natCast _

/-- A word below 2^31 is not negative: the select that would add the extent keeps the word. -/
theorem select_slt_zero (v a : BitVec 32) (hv : v.toNat < 2 ^ 31) :
    Scalar.select (IntOp.cmpi .slt v 0#32) a v = v := by
  have h : IntOp.cmpi .slt v 0#32 = 0#1 := by
    have hs : v.slt 0#32 = false := by
      rw [BitVec.slt, BitVec.toInt_eq_toNat_cond, if_pos (by omega : 2 * v.toNat < 2 ^ 32)]
      simp
    simp [IntOp.cmpi, hs]
  rw [h]
  exact ValueIdx.select_zero a v

/-- A counter below 2^32, as a word, denotes itself. -/
theorem toNat_ofNat_of_lt {k : ℕ} (hk : k < 2 ^ 32) : (BitVec.ofNat 32 k).toNat = k := by
  rw [BitVec.toNat_ofNat, Nat.mod_eq_of_lt hk]

/-- 64 r + w in words, for a row r < 16 and a column word w below 64, denotes 64 r + w. -/
theorem toNat_row_add (r : ℕ) (hr : r < 16) (w : BitVec 32) (hw : w.toNat < 64) :
    (IntOp.addi (IntOp.muli (BitVec.ofNat 32 r) 64#32) w).toNat = r * 64 + w.toNat := by
  show ((BitVec.ofNat 32 r) * 64#32 + w).toNat = _
  rw [BitVec.toNat_add, BitVec.toNat_mul, BitVec.toNat_ofNat]
  show (r % 2 ^ 32 * 64 % 2 ^ 32 + w.toNat) % 2 ^ 32 = _
  omega

end Cert.WordIndex
-- ==== Proof.RefData.lean ====
/-
  Three facts about the data of the reference program, for every edge array.

  The per-node scale is  select (deg > 0) (rsqrt (max deg 1)) 0,  where deg is a scattered sum whose value is not needed
  here: max deg 1 is at least 1 whatever deg is, and the reciprocal square root of an extended real that is at least 1 is
  a nonnegative real (it is 0 at +∞). The other branch of the select is the float word 0. So the scale is nonnegative and
  is never +∞.

  An edge lands at node p when its destination word, read as a signed integer, is p. Such a word denotes a number below
  100000, so it is not negative as a signed word: the wrap-around that adds 100000 to a negative index keeps it, and the
  clamp of a row gather into the 100000 rows keeps it too. So the row the wrapped word selects is p itself.
-/
import proofs.«145911_j41850161332531_2_alg».proof.Proof.RefRead
import proofs.«145911_j41850161332531_2_alg».proof.Proof.Spec
import proofs.«145911_j41850161332531_2_alg».proof.Proof.LibWordIndex
import proofs.«145911_j41850161332531_2_alg».proof.Proof.LibRowTakeAdd
import Idealize.ShloMosaic.Lib.IdealHost

noncomputable section

namespace Cert.Gcn.Data

open Cert.ReferenceIdeal Cert.ReferenceIdeal.Gen Cert.ReferenceIdeal.ReadP Idealize.ShloMosaic Idealize.ShloMosaic.ValueIdx

/-- The reciprocal square root of an extended real that is at least 1 is nonnegative and is not +∞. -/
theorem rsqrt_of_one_le (y : EReal) (hy : 1 ≤ y) : 0 ≤ Ideal.rsqrt y ∧ Ideal.rsqrt y ≠ ⊤ := by
  induction y using EReal.rec with
  | bot =>
    exfalso
    have h1 : (⊥ : EReal) < 1 := by rw [← EReal.coe_one]; exact EReal.bot_lt_coe 1
    exact not_le.mpr h1 hy
  | top => rw [Ideal.rsqrt_top]; exact ⟨le_refl _, EReal.zero_ne_top⟩
  | coe t =>
    have ht : (1 : ℝ) ≤ t := by exact_mod_cast hy
    rw [Ideal.rsqrt_coe, if_neg (by linarith), if_neg (by linarith)]
    exact ⟨EReal.coe_nonneg.mpr (inv_nonneg.mpr (Real.sqrt_nonneg t)), EReal.coe_ne_top _⟩

/-- The scale at a node is either the reciprocal square root of max(deg, 1), or zero. -/
theorem scale_cases (x1 : (⟨S2x1000000, .i32⟩ : BufTy).Contents (Elt Ideal)) (r : S100000.Idx) :
    val_main_v16 (F := Ideal) x1 r = Ideal.rsqrt (max (val_main_v10 (F := Ideal) x1 r) 1)
      ∨ val_main_v16 (F := Ideal) x1 r = (0 : EReal) := by
  rw [val_main_v16_apply]
  by_cases hc : val_main_v12 (F := Ideal) x1 r = 1#1
  · left
    rw [hc, select_one, val_main_v15_apply, Ideal.hostUnary_rsqrt_def, val_main_v14_apply, Ideal.maximumf_def,
      val_main_v13_apply, val_main_cst_2_apply, Ideal.ofBits_def, Ideal.ofBits_one_f32]
  · right
    rw [eq_zero_of_ne_one hc, select_zero, val_main_call0_v1_apply, val_main_call0_v0_apply, val_main_cst_3_apply,
      Ideal.ofBits_def, Ideal.ofBits_zero_f32]

/-- The scale of every node is nonnegative. -/
theorem scale_nonneg (x1 : (⟨S2x1000000, .i32⟩ : BufTy).Contents (Elt Ideal)) (r : S100000.Idx) :
    0 ≤ val_main_v16 (F := Ideal) x1 r := by
  rcases scale_cases x1 r with h | h
  · rw [h]; exact (rsqrt_of_one_le _ (le_max_right _ _)).1
  · rw [h]

/-- The scale of every node is not +∞. -/
theorem scale_ne_top (x1 : (⟨S2x1000000, .i32⟩ : BufTy).Contents (Elt Ideal)) (r : S100000.Idx) :
    val_main_v16 (F := Ideal) x1 r ≠ ⊤ := by
  rcases scale_cases x1 r with h | h
  · rw [h]; exact (rsqrt_of_one_le _ (le_max_right _ _)).2
  · rw [h]; exact EReal.zero_ne_top

/-- An edge that lands at node p has a destination word whose wrapped, clamped row is p. -/
theorem wrapped_row_of_landing (x1 : (⟨S2x1000000, .i32⟩ : BufTy).Contents (Elt Ideal)) (e : Fin 1100000) (p : Fin 100000)
    (h : e ∈ Cert.Gcn.landing (val_main_v44 (F := Ideal) x1) p) :
    Cert.Gcn.rowOf (val_main_v29 (F := Ideal) x1) e = p := by
  have hidx44 : idx_main_v44 (ix2 e (0 : Fin 1)) = ix1 e := by
    funext a; match a with | ⟨0, _⟩ => rfl
  have hidx29 : idx_main_v29 (ix2 e (0 : Fin 1)) = ix1 e := by
    funext a; match a with | ⟨0, _⟩ => rfl
  -- the destination word of the edge, kept opaque
  generalize hw : val_main_v6 (F := Ideal) x1 (ix1 e) = w at *
  have hland : w.toInt = (p.val : Int) := by
    have h2 := (Finset.mem_filter.mp h).2
    rw [val_main_v44_apply, hidx44, hw] at h2
    exact h2
  have hp : p.val < 100000 := p.isLt
  have hlt : w.toNat < 2 ^ 31 := by
    rw [BitVec.toInt_eq_toNat_cond] at hland
    have hwlt : w.toNat < 2 ^ 32 := w.isLt
    split_ifs at hland <;> omega
  have hnat : w.toInt.toNat = p.val := by
    rw [hland]; exact Int.toNat_natCast _
  have h29 : val_main_v29 (F := Ideal) x1 (ix2 e (0 : Fin 1)) = w := by
    rw [val_main_v29_apply, hidx29, val_main_v28_apply, val_main_v25_apply, val_main_v24_apply, val_main_c_5_apply, hw]
    exact Cert.WordIndex.select_slt_zero w _ hlt
  unfold Cert.Gcn.rowOf
  rw [h29]
  refine Fin.ext ?_
  show min w.toInt.toNat (100000 - 1) = p.val
  rw [hnat]; omega

end Cert.Gcn.Data

end
-- ==== Proof.Bridge.lean ====
/-
  The graph data of the two programs is the same data.

  Both programs extend each row of the edge list by the self-loops, move a negative source word up by 100000 before rows
  are taken, keep the destination words as they are where rows are added, and compute the per-node scale
  select (deg > 0) (rsqrt (max deg 1)) 0 from the degree scattered at the destination words. They spell these with their
  own constants, which agree field by field, so each pair of arrays is equal by unfolding the definitions.

  With the source column, the destination column and the scale identified, the per-node way of writing the network over
  the one program's data is the per-edge way over the other's: the scale is nonnegative and never +∞, and an edge that
  lands at a node has that node as its wrapped destination row.
-/
import proofs.«145911_j41850161332531_2_alg».proof.Proof.KernelData
import proofs.«145911_j41850161332531_2_alg».proof.Proof.RefRead
import proofs.«145911_j41850161332531_2_alg».proof.Proof.RefData
import proofs.«145911_j41850161332531_2_alg».proof.Proof.Spec

noncomputable section

namespace Cert.Gcn.Bridge

open Idealize.ShloMosaic Idealize.ShloMosaic.ValueIdx

/-- The extended source words of the two programs. -/
theorem src_words_eq (ei : IVec ⟨2, ![2, 1000000]⟩ 32) :
    Cert.KernelIdeal.Out.srcWords ei = Cert.ReferenceIdeal.ReadP.val_main_v3 (F := Ideal) ei := by
  unfold Cert.KernelIdeal.Out.srcWords Cert.ReferenceIdeal.ReadP.val_main_v3 Cert.ReferenceIdeal.ReadP.val_main_v2
    Cert.ReferenceIdeal.ReadP.val_main_v1 Cert.ReferenceIdeal.ReadP.val_main_v0
  rfl

/-- The extended destination words of the two programs. -/
theorem dst_words_eq (ei : IVec ⟨2, ![2, 1000000]⟩ 32) :
    Cert.KernelIdeal.Out.dstWords ei = Cert.ReferenceIdeal.ReadP.val_main_v6 (F := Ideal) ei := by
  unfold Cert.KernelIdeal.Out.dstWords Cert.ReferenceIdeal.ReadP.val_main_v6 Cert.ReferenceIdeal.ReadP.val_main_v5
    Cert.ReferenceIdeal.ReadP.val_main_v4 Cert.ReferenceIdeal.ReadP.val_main_v0
  rfl

/-- The source column a row gather reads: the wrapped source words, in both programs. -/
theorem src_col_eq (ei : IVec ⟨2, ![2, 1000000]⟩ 32) :
    Cert.KernelIdeal.Out.takeCol (Cert.KernelIdeal.Out.srcWords ei)
      = Cert.ReferenceIdeal.ReadP.val_main_v38 (F := Ideal) ei := by
  rw [src_words_eq]
  unfold Cert.KernelIdeal.Out.takeCol Cert.ReferenceIdeal.ReadP.val_main_v38 Cert.ReferenceIdeal.ReadP.val_main_v37
    Cert.ReferenceIdeal.ReadP.val_main_v36 Cert.ReferenceIdeal.ReadP.val_main_v35 Cert.ReferenceIdeal.ReadP.val_main_c_8
    Cert.ReferenceIdeal.ReadP.val_main_v34 Cert.ReferenceIdeal.ReadP.val_main_v33 Cert.ReferenceIdeal.ReadP.val_main_c_7
  rfl

/-- The destination column an accumulating scatter reads: the destination words as they are, in both programs. -/
theorem dst_col_eq (ei : IVec ⟨2, ![2, 1000000]⟩ 32) :
    Cert.KernelIdeal.Out.putCol (Cert.KernelIdeal.Out.dstWords ei)
      = Cert.ReferenceIdeal.ReadP.val_main_v44 (F := Ideal) ei := by
  rw [dst_words_eq]
  unfold Cert.KernelIdeal.Out.putCol Cert.ReferenceIdeal.ReadP.val_main_v44
  rfl

/-- The degree of every node, in both programs. -/
theorem degree_eq (ei : IVec ⟨2, ![2, 1000000]⟩ 32) :
    Cert.KernelIdeal.Out.degree (Cert.KernelIdeal.Out.dstWords ei)
      = Cert.ReferenceIdeal.ReadP.val_main_v10 (F := Ideal) ei := by
  unfold Cert.KernelIdeal.Out.degree
  rw [dst_words_eq]
  unfold Cert.KernelIdeal.Out.putCol Cert.ReferenceIdeal.ReadP.val_main_v10 Cert.ReferenceIdeal.ReadP.val_main_v9
    Cert.ReferenceIdeal.ReadP.val_main_v8 Cert.ReferenceIdeal.ReadP.val_main_v7 Cert.ReferenceIdeal.ReadP.val_main_cst
    Cert.ReferenceIdeal.ReadP.val_main_cst_0
  rfl

/-- The per-node scale, in both programs. -/
theorem scale_eq (ei : IVec ⟨2, ![2, 1000000]⟩ 32) :
    Cert.KernelIdeal.Out.nodeScale (Cert.KernelIdeal.Out.dstWords ei)
      = Cert.ReferenceIdeal.ReadP.val_main_v16 (F := Ideal) ei := by
  unfold Cert.KernelIdeal.Out.nodeScale
  rw [degree_eq]
  unfold Cert.ReferenceIdeal.ReadP.val_main_v16 Cert.ReferenceIdeal.ReadP.val_main_v15 Cert.ReferenceIdeal.ReadP.val_main_v14
    Cert.ReferenceIdeal.ReadP.val_main_v13 Cert.ReferenceIdeal.ReadP.val_main_cst_2 Cert.ReferenceIdeal.ReadP.val_main_v12
    Cert.ReferenceIdeal.ReadP.val_main_v11 Cert.ReferenceIdeal.ReadP.val_main_cst_1 Cert.ReferenceIdeal.ReadP.val_main_call0_v1
    Cert.ReferenceIdeal.ReadP.val_main_call0_v0 Cert.ReferenceIdeal.ReadP.val_main_cst_3
  rfl

/-- The network written per node over the one program's graph data is the network written per edge over the other's. -/
theorem node_eq_edge (ei : IVec ⟨2, ![2, 1000000]⟩ 32)
    (x : (⟨2, ![100000, 128]⟩ : Shape).Idx → EReal) (W1 : (⟨2, ![128, 64]⟩ : Shape).Idx → EReal)
    (b1 : (⟨1, ![64]⟩ : Shape).Idx → EReal) (W2 : (⟨2, ![64, 32]⟩ : Shape).Idx → EReal)
    (b2 : (⟨1, ![32]⟩ : Shape).Idx → EReal) :
    Cert.Gcn.outNode (Cert.KernelIdeal.Out.takeCol (Cert.KernelIdeal.Out.srcWords ei))
        (Cert.KernelIdeal.Out.putCol (Cert.KernelIdeal.Out.dstWords ei))
        (Cert.KernelIdeal.Out.nodeScale (Cert.KernelIdeal.Out.dstWords ei)) x W1 b1 W2 b2
      = Cert.Gcn.outEdge (Cert.ReferenceIdeal.ReadP.val_main_v38 (F := Ideal) ei)
        (Cert.ReferenceIdeal.ReadP.val_main_v44 (F := Ideal) ei) (Cert.ReferenceIdeal.ReadP.val_main_v29 (F := Ideal) ei)
        (Cert.ReferenceIdeal.ReadP.val_main_v16 (F := Ideal) ei) x W1 b1 W2 b2 := by
  rw [src_col_eq, dst_col_eq, scale_eq]
  exact Cert.Gcn.outNode_eq _ _ _ _ x W1 b1 W2 b2 (Cert.Gcn.Data.scale_nonneg ei) (Cert.Gcn.Data.scale_ne_top ei)
    (Cert.Gcn.Data.wrapped_row_of_landing ei)

end Cert.Gcn.Bridge

end
-- ==== Proof.lean ====
/-
  The certificate: a two-layer graph convolution computed by three pipelined kernels against its jnp reference, equal
  over the extended reals.

  Both programs build the same graph data from the edge list (source and destination words extended by the self-loops,
  the per-node scale 1 / sqrt (max (degree, 1))). The reference weighs every edge's message by
  scale (source) · scale (destination) and sums the messages that land at a node. The kernel scales each node's row by
  the node's own scale before the rows are sent (in the epilogue of a matrix product), sums the rows that land at a
  node, and scales the sum by the receiving node's scale afterwards (in the prologue of the next kernel). An edge that
  lands at p has destination p, so the reference's second factor is constant on the sum at p; and the scale is
  nonnegative and not +∞, so it moves across the finite sum of extended reals whatever the summands are. The matrix
  products are the same finite sums on both sides, and the short float format is the identity on the extended reals.
  The inputs' finiteness is never used.

  The frames of the two kernel programs are the generated ones; the reference's frame is its generated run with the result
  dropped; the ideal pass rewrote nothing, so the idealization claim is trivial.
-/
import proofs.«145911_j41850161332531_2_alg».proof.Defs
import proofs.«145911_j41850161332531_2_alg».proof.Proof.Gen.Kernel
import proofs.«145911_j41850161332531_2_alg».proof.Proof.Gen.Kernel.Skeleton
import proofs.«145911_j41850161332531_2_alg».proof.Proof.Gen.Kernel.Launch
import proofs.«145911_j41850161332531_2_alg».proof.Proof.Gen.Kernel.Points
import proofs.«145911_j41850161332531_2_alg».proof.Proof.Gen.Kernel.Frame
import proofs.«145911_j41850161332531_2_alg».proof.Proof.Gen.KernelIdeal
import proofs.«145911_j41850161332531_2_alg».proof.Proof.Gen.KernelIdeal.Skeleton
import proofs.«145911_j41850161332531_2_alg».proof.Proof.Gen.KernelIdeal.Launch
import proofs.«145911_j41850161332531_2_alg».proof.Proof.Gen.KernelIdeal.Points
import proofs.«145911_j41850161332531_2_alg».proof.Proof.Gen.KernelIdeal.Frame
import proofs.«145911_j41850161332531_2_alg».proof.Proof.Gen.ReferenceIdeal
import proofs.«145911_j41850161332531_2_alg».proof.Proof.RefRead
import proofs.«145911_j41850161332531_2_alg».proof.Proof.Gen.Pre_finite_inputs
import proofs.«145911_j41850161332531_2_alg».proof.Proof.KernelFold
import proofs.«145911_j41850161332531_2_alg».proof.Proof.KernelAt
import proofs.«145911_j41850161332531_2_alg».proof.Proof.RefValue
import proofs.«145911_j41850161332531_2_alg».proof.Proof.Bridge
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the per-node form of the network over the kernel's arguments. -/
theorem algebraic : Cert.algebraic_KernelIdeal_ReferenceIdeal := by
  intro m ρ m' ρ' _ hagree
  refine ⟨fun c => Cert.KernelIdeal.Out.kernelArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Out.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v66_eq, (hagree c).1, (hagree c).2.1, (hagree c).2.2.1, (hagree c).2.2.2.1,
    (hagree c).2.2.2.2.1, (hagree c).2.2.2.2.2]
  funext i
  obtain ⟨p, q, rfl⟩ : ∃ (p : Fin 100000) (q : Fin 32), i = ix2 p q := ⟨i 0, i 1, eq_ix2 i⟩
  rw [Cert.Gcn.Ref.ref_out]
  show _ = Cert.KernelIdeal.Out.kernelArr _ _ _ _ _ _ (ix2 p q)
  rw [Cert.KernelIdeal.Out.kernelArr_at, Cert.Gcn.Bridge.node_eq_edge]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
